-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S512x3 : Shape := ⟨2, ![512, 3]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S512x3 : S_.BroadcastsInDim S512x3 (![] : Fin 0 → Fin S512x3.rank)
  reducesTo_S512x3_S_d0_1 : S512x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part9 {F : FTy → Type} [FloatOps F] (main_arg33 : FVec F S10 .f32) (main_v153 : IVec S_ 1) : IVec S_ 1 :=
  let main_v154 : FVec F S10 .f32 := Host.absf main_arg33
  let main_cst_60 : FVec F S_ .f32 := constant S_ .f32 0x7F800000#32
  let main_v155 : FVec F S10 .f32 := broadcastInDim S10 ![] bcast_S_S10 main_cst_60
  let main_v156 : IVec S10 1 := cmpf .olt main_v154 main_v155
  let main_c_61 : IVec S_ 1 := constantI S_ 1 1#1
  let main_v157 : IVec S_ 1 := (fun x v => Host.reduce IntOp.andi x v reducesTo_S10_S_d0 h_S_) main_v156 main_c_61
  let main_v158 : IVec S_ 1 := andi main_v153 main_v157
  main_v158

def fn_part8 {F : FTy → Type} [FloatOps F] (main_arg30 : FVec F S64x10 .f32) (main_arg31 : FVec F S10 .f32) (main_arg32 : FVec F S64x10 .f32) (main_arg33 : FVec F S10 .f32) (main_v133 : IVec S_ 1) (main_v136 : IVec S10 1) : IVec S_ 1 :=
  let main_c_53 : IVec S_ 1 := constantI S_ 1 1#1
  let main_v137 : IVec S_ 1 := (fun x v => Host.reduce IntOp.andi x v reducesTo_S10_S_d0 h_S_) main_v136 main_c_53
  let main_v138 : IVec S_ 1 := andi main_v133 main_v137
  let main_v139 : FVec F S64x10 .f32 := Host.absf main_arg30
  let main_cst_54 : FVec F S_ .f32 := constant S_ .f32 0x7F800000#32
  let main_v140 : FVec F S64x10 .f32 := broadcastInDim S64x10 ![] bcast_S_S64x10 main_cst_54
  let main_v141 : IVec S64x10 1 := cmpf .olt main_v139 main_v140
  let main_c_55 : IVec S_ 1 := constantI S_ 1 1#1
  let main_v142 : IVec S_ 1 := (fun x v => Host.reduce IntOp.andi x v reducesTo_S64x10_S_d0_1 h_S_) main_v141 main_c_55
  let main_v143 : IVec S_ 1 := andi main_v138 main_v142
  let main_v144 : FVec F S10 .f32 := Host.absf main_arg31
  let main_cst_56 : FVec F S_ .f32 := constant S_ .f32 0x7F800000#32
  let main_v145 : FVec F S10 .f32 := broadcastInDim S10 ![] bcast_S_S10 main_cst_56
  let main_v146 : IVec S10 1 := cmpf .olt main_v144 main_v145
  let main_c_57 : IVec S_ 1 := constantI S_ 1 1#1
  let main_v147 : IVec S_ 1 := (fun x v => Host.reduce IntOp.andi x v reducesTo_S10_S_d0 h_S_) main_v146 main_c_57
  let main_v148 : IVec S_ 1 := andi main_v143 main_v147
  let main_v149 : FVec F S64x10 .f32 := Host.absf main_arg32
  let main_cst_58 : FVec F S_ .f32 := constant S_ .f32 0x7F800000#32
  let main_v150 : FVec F S64x10 .f32 := broadcastInDim S64x10 ![] bcast_S_S64x10 main_cst_58
  let main_v151 : IVec S64x10 1 := cmpf .olt main_v149 main_v150
  let main_c_59 : IVec S_ 1 := constantI S_ 1 1#1
  let main_v152 : IVec S_ 1 := (fun x v => Host.reduce IntOp.andi x v reducesTo_S64x10_S_d0_1 h_S_) main_v151 main_c_59
  let main_v153 : IVec S_ 1 := andi main_v148 main_v152
  fn_part9 (F := F) main_arg33 main_v153

def fn_part7 {F : FTy → Type} [FloatOps F] (main_arg27 : FVec F S64 .f32) (main_arg28 : FVec F S64x10 .f32) (main_arg29 : FVec F S10 .f32) (main_arg30 : FVec F S64x10 .f32) (main_arg31 : FVec F S10 .f32) (main_arg32 : FVec F S64x10 .f32) (main_arg33 : FVec F S10 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x10 .f32 := Host.absf main_arg28
  let main_cst_50 : FVec F S_ .f32 := constant S_ .f32 0x7F800000#32
  let main_v130 : FVec F S64x10 .f32 := broadcastInDim S64x10 ![] bcast_S_S64x10 main_cst_50
  let main_v131 : IVec S64x10 1 := cmpf .olt main_v129 main_v130
  let main_c_51 : IVec S_ 1 := constantI S_ 1 1#1
  let main_v132 : IVec S_ 1 := (fun x v => Host.reduce IntOp.andi x v reducesTo_S64x10_S_d0_1 h_S_) main_v131 main_c_51
  let main_v133 : IVec S_ 1 := andi main_v128 main_v132
  let main_v134 : FVec F S10 .f32 := Host.absf main_arg29
  let main_cst_52 : FVec F S_ .f32 := constant S_ .f32 0x7F800000#32
  let main_v135 : FVec F S10 .f32 := broadcastInDim S10 ![] bcast_S_S10 main_cst_52
  let main_v136 : IVec S10 1 := cmpf .olt main_v134 main_v135
  fn_part8 (F := F) main_arg30 main_arg31 main_arg32 main_arg33 main_v133 main_v136

def fn_part6 {F : FTy → Type} [FloatOps F] (main_arg23 : FVec F S64 .f32) (main_arg24 : FVec F S64 .f32) (main_arg25 : FVec F S64 .f32) (main_arg26 : FVec F S64 .f32) (main_arg27 : FVec F S64 .f32) (main_arg28 : FVec F S64x10 .f32) (main_arg29 : FVec F S10 .f32) (main_arg30 : FVec F S64x10 .f32) (main_arg31 : FVec F S10 .f32) (main_arg32 : FVec F S64x10 .f32) (main_arg33 : FVec F S10 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg26
  fn_part7 (F := F) main_arg27 main_arg28 main_arg29 main_arg30 main_arg31 main_arg32 main_arg33 main_v118 main_v119

def fn_part5 {F : FTy → Type} [FloatOps F] (main_arg20 : FVec F S64 .f32) (main_arg21 : FVec F S64 .f32) (main_arg22 : FVec F S64x64 .f32) (main_arg23 : FVec F S64 .f32) (main_arg24 : FVec F S64 .f32) (main_arg25 : FVec F S64 .f32) (main_arg26 : FVec F S64 .f32) (main_arg27 : FVec F S64 .f32) (main_arg28 : FVec F S64x10 .f32) (main_arg29 : FVec F S10 .f32) (main_arg30 : FVec F S64x10 .f32) (main_arg31 : FVec F S10 .f32) (main_arg32 : FVec F S64x10 .f32) (main_arg33 : FVec F S10 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg22
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_v98 main_v101 main_c_39

def fn_part4 {F : FTy → Type} [FloatOps F] (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S64x64 .f32) (main_arg23 : FVec F S64 .f32) (main_arg24 : FVec F S64 .f32) (main_arg25 : FVec F S64 .f32) (main_arg26 : FVec F S64 .f32) (main_arg27 : FVec F S64 .f32) (main_arg28 : FVec F S64x10 .f32) (main_arg29 : FVec F S10 .f32) (main_arg30 : FVec F S64x10 .f32) (main_arg31 : FVec F S10 .f32) (main_arg32 : FVec F S64x10 .f32) (main_arg33 : FVec F S10 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S64x64 .f32) (main_arg23 : FVec F S64 .f32) (main_arg24 : FVec F S64 .f32) (main_arg25 : FVec F S64 .f32) (main_arg26 : FVec F S64 .f32) (main_arg27 : FVec F S64 .f32) (main_arg28 : FVec F S64x10 .f32) (main_arg29 : FVec F S10 .f32) (main_arg30 : FVec F S64x10 .f32) (main_arg31 : FVec F S10 .f32) (main_arg32 : FVec F S64x10 .f32) (main_arg33 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S64x64 .f32) (main_arg23 : FVec F S64 .f32) (main_arg24 : FVec F S64 .f32) (main_arg25 : FVec F S64 .f32) (main_arg26 : FVec F S64 .f32) (main_arg27 : FVec F S64 .f32) (main_arg28 : FVec F S64x10 .f32) (main_arg29 : FVec F S10 .f32) (main_arg30 : FVec F S64x10 .f32) (main_arg31 : FVec F S10 .f32) (main_arg32 : FVec F S64x10 .f32) (main_arg33 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S64x64 .f32) (main_arg23 : FVec F S64 .f32) (main_arg24 : FVec F S64 .f32) (main_arg25 : FVec F S64 .f32) (main_arg26 : FVec F S64 .f32) (main_arg27 : FVec F S64 .f32) (main_arg28 : FVec F S64x10 .f32) (main_arg29 : FVec F S10 .f32) (main_arg30 : FVec F S64x10 .f32) (main_arg31 : FVec F S10 .f32) (main_arg32 : FVec F S64x10 .f32) (main_arg33 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S50000x64 .f32) (main_arg1 : IVec S2x800000 32) (main_arg2 : IVec S50000 32) (main_arg3 : FVec F S512x3 .f32) (main_arg4 : FVec F S64x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_arg22 : FVec F S64x64 .f32) (main_arg23 : FVec F S64 .f32) (main_arg24 : FVec F S64 .f32) (main_arg25 : FVec F S64 .f32) (main_arg26 : FVec F S64 .f32) (main_arg27 : FVec F S64 .f32) (main_arg28 : FVec F S64x10 .f32) (main_arg29 : FVec F S10 .f32) (main_arg30 : FVec F S64x10 .f32) (main_arg31 : FVec F S10 .f32) (main_arg32 : FVec F S64x10 .f32) (main_arg33 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S512x3 .f32 := Host.absf main_arg3
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S512x3 : Shape := ⟨2, ![512, 3]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S2000x64 : Shape := ⟨2, ![2000, 64]⟩
abbrev S512 : Shape := ⟨1, ![512]⟩
abbrev S50000x1 : Shape := ⟨2, ![50000, 1]⟩
abbrev S512x64 : Shape := ⟨2, ![512, 64]⟩
abbrev S512x1 : Shape := ⟨2, ![512, 1]⟩
abbrev S1x10 : Shape := ⟨2, ![1, 10]⟩
abbrev S512x10 : Shape := ⟨2, ![512, 10]⟩

abbrev nBuf : Space → Nat
  | .hbm => 120
  | .vmem => 47
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S512x3, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64x64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S64x10, .f32⟩
  | .hbm, ⟨29, _⟩ => ⟨S10, .f32⟩
  | .hbm, ⟨30, _⟩ => ⟨S64x10, .f32⟩
  | .hbm, ⟨31, _⟩ => ⟨S10, .f32⟩
  | .hbm, ⟨32, _⟩ => ⟨S64x10, .f32⟩
  | .hbm, ⟨33, _⟩ => ⟨S10, .f32⟩
  | .hbm, ⟨34, _⟩ => ⟨S1x800000, .i32⟩
  | .hbm, ⟨35, _⟩ => ⟨S800000, .i32⟩
  | .hbm, ⟨36, _⟩ => ⟨S1x800000, .i32⟩
  | .hbm, ⟨37, _⟩ => ⟨S800000, .i32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S50000x64, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S512, .f32⟩
  | .hbm, ⟨90, _⟩ => ⟨S50000x1, .i32⟩
  | .hbm, ⟨91, _⟩ => ⟨S512, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S_, .f32⟩
  | .hbm, ⟨96, _⟩ => ⟨S512x64, .f32⟩
  | .hbm, ⟨97, _⟩ => ⟨S50000x1, .i32⟩
  | .hbm, ⟨98, _⟩ => ⟨S512x64, .f32⟩
  | .hbm, ⟨99, _⟩ => ⟨S512x1, .f32⟩
  | .hbm, ⟨100, _⟩ => ⟨S512x64, .f32⟩
  | .hbm, ⟨101, _⟩ => ⟨S512x64, .f32⟩
  | .hbm, ⟨102, _⟩ => ⟨S_, .f32⟩
  | .hbm, ⟨103, _⟩ => ⟨S512x64, .f32⟩
  | .hbm, ⟨104, _⟩ => ⟨S50000x1, .i32⟩
  | .hbm, ⟨105, _⟩ => ⟨S512x64, .f32⟩
  | .hbm, ⟨106, _⟩ => ⟨S512x1, .f32⟩
  | .hbm, ⟨107, _⟩ => ⟨S512x64, .f32⟩
  | .hbm, ⟨108, _⟩ => ⟨S512x64, .f32⟩
  | .hbm, ⟨109, _⟩ => ⟨S_, .f32⟩
  | .hbm, ⟨110, _⟩ => ⟨S512x64, .f32⟩
  | .hbm, ⟨111, _⟩ => ⟨S50000x1, .i32⟩
  | .hbm, ⟨112, _⟩ => ⟨S512x64, .f32⟩
  | .hbm, ⟨113, _⟩ => ⟨S512x1, .f32⟩
  | .hbm, ⟨114, _⟩ => ⟨S512x64, .f32⟩
  | .hbm, ⟨115, _⟩ => ⟨S512x64, .f32⟩
  | .hbm, ⟨116, _⟩ => ⟨S1x10, .f32⟩
  | .hbm, ⟨117, _⟩ => ⟨S1x10, .f32⟩
  | .hbm, ⟨118, _⟩ => ⟨S1x10, .f32⟩
  | .hbm, ⟨119, _⟩ => ⟨S512x10, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S512x64, .f32⟩
  | .local _ .vmem, ⟨37, _⟩ => ⟨S512x64, .f32⟩
  | .local _ .vmem, ⟨38, _⟩ => ⟨S512x64, .f32⟩
  | .local _ .vmem, ⟨39, _⟩ => ⟨S64x10, .f32⟩
  | .local _ .vmem, ⟨40, _⟩ => ⟨S1x10, .f32⟩
  | .local _ .vmem, ⟨41, _⟩ => ⟨S64x10, .f32⟩
  | .local _ .vmem, ⟨42, _⟩ => ⟨S1x10, .f32⟩
  | .local _ .vmem, ⟨43, _⟩ => ⟨S64x10, .f32⟩
  | .local _ .vmem, ⟨44, _⟩ => ⟨S1x10, .f32⟩
  | .local _ .vmem, ⟨45, _⟩ => ⟨S512x3, .f32⟩
  | .local _ .vmem, ⟨46, _⟩ => ⟨S512x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_v5 : Ref sig .tc := ⟨.hbm, 40, rfl⟩
abbrev main_c_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_c_1 : Ref sig .tc := ⟨.hbm, 62, rfl⟩
abbrev main_v25 : Ref sig .tc := ⟨.hbm, 63, rfl⟩
abbrev main_v26 : Ref sig .tc := ⟨.hbm, 64, rfl⟩
abbrev main_c_2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_3 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_4 : Ref sig .tc := ⟨.hbm, 86, rfl⟩
abbrev main_v46 : Ref sig .tc := ⟨.hbm, 87, rfl⟩
abbrev main_cst_5 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_6 : Ref sig .tc := ⟨.hbm, 92, rfl⟩
abbrev main_v50 : Ref sig .tc := ⟨.hbm, 93, rfl⟩
abbrev main_v51 : Ref sig .tc := ⟨.hbm, 94, rfl⟩
abbrev main_cst_7 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_8 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_9 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg14_1 : Ref sig .tc := ⟨.vmem, 35, rfl⟩
abbrev cc2_stg0_0 : Ref sig .tc := ⟨.vmem, 36, rfl⟩
abbrev cc2_stg1_0 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem14_1 : DmaSem sig := 35
abbrev cc2_sem0_0 : DmaSem sig := 36
abbrev cc2_sem1_0 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem10_0 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x10 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x3 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x10 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x3_S512x3_0_0 : ∀ a, (![0, 0] : Fin 2 → Nat) a + S512x3.size a ≤ S512x3.size a
  h_S512x3 : 0 < S512x3.numel
  slices_S512x3_o0_0_S512x1 : S512x3.Slices ![0, 0] S512x1
  broadcasts_S512x1_S512x10 : S512x1.Broadcasts S512x10
  slices_S512x3_o0_1_S512x1 : S512x3.Slices ![0, 1] S512x1
  slices_S512x3_o0_2_S512x1 : S512x3.Slices ![0, 2] S512x1
  inb_S512x10_S512x10_0_0 : ∀ a, (![0, 0] : Fin 2 → Nat) a + S512x10.size a ≤ S512x10.size a
  h_S512x10 : 0 < S512x10.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x64.size a ≤ S50000x64.size a
  hwx0_14 : ∀ i : grid0.Coords, EltTy.bits .f32 = 32 ∨ (Rect.block (s := S50000x64) S2000x64.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x64.size a ≤ S50000x64.size a
  hwx1_14 : ∀ i : grid1.Coords, EltTy.bits .f32 = 32 ∨ (Rect.block (s := S50000x64) S2000x64.size (cc1_transform_14 i) (hinb1_14 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S512x64.size a
  hwx2_2 : ∀ i : grid2.Coords, EltTy.bits .f32 = 32 ∨ (Rect.block (s := S512x64) S512x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x10.size a ≤ S64x10.size a
  hwx2_3 : ∀ i : grid2.Coords, EltTy.bits .f32 = 32 ∨ (Rect.block (s := S64x10) S64x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x10.size a ≤ S64x10.size a
  hwx2_5 : ∀ i : grid2.Coords, EltTy.bits .f32 = 32 ∨ (Rect.block (s := S64x10) S64x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x10.size a ≤ S64x10.size a
  hwx2_7 : ∀ i : grid2.Coords, EltTy.bits .f32 = 32 ∨ (Rect.block (s := S64x10) S64x10.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x10.size a ≤ S1x10.size a
  hwx2_8 : ∀ i : grid2.Coords, EltTy.bits .f32 = 32 ∨ (Rect.block (s := S1x10) S1x10.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x3.size a ≤ S512x3.size a
  hwx2_9 : ∀ i : grid2.Coords, EltTy.bits .f32 = 32 ∨ (Rect.block (s := S512x3) S512x3.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512x10.size a ≤ S512x10.size a
  hwx2_10 : ∀ i : grid2.Coords, EltTy.bits .f32 = 32 ∨ (Rect.block (s := S512x10) S512x10.size (cc2_transform_10 i) (hinb2_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v24) S2000x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v24) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg22) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v41) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v42) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v43) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v44) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v45) S2000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v57) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v63) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S512x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg28) S64x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg30) S64x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg32) S64x10.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v72) S1x10.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg3) S512x3.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v73) S512x10.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S512x3 : Shape := ⟨2, ![512, 3]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S512 : Shape := ⟨1, ![512]⟩
abbrev S50000x1 : Shape := ⟨2, ![50000, 1]⟩
abbrev S512x10 : Shape := ⟨2, ![512, 10]⟩
abbrev S512x64 : Shape := ⟨2, ![512, 64]⟩
abbrev S512x1 : Shape := ⟨2, ![512, 1]⟩
abbrev S1x10 : Shape := ⟨2, ![1, 10]⟩

abbrev nBuf : Space → Nat
  | .hbm => 214
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S512x3, .f32⟩
  | 4 => ⟨S64x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S64, .f32⟩
  | 22 => ⟨S64x64, .f32⟩
  | 23 => ⟨S64, .f32⟩
  | 24 => ⟨S64, .f32⟩
  | 25 => ⟨S64, .f32⟩
  | 26 => ⟨S64, .f32⟩
  | 27 => ⟨S64, .f32⟩
  | 28 => ⟨S64x10, .f32⟩
  | 29 => ⟨S10, .f32⟩
  | 30 => ⟨S64x10, .f32⟩
  | 31 => ⟨S10, .f32⟩
  | 32 => ⟨S64x10, .f32⟩
  | 33 => ⟨S10, .f32⟩
  | 34 => ⟨S1x800000, .i32⟩
  | 35 => ⟨S800000, .i32⟩
  | 36 => ⟨S1x800000, .i32⟩
  | 37 => ⟨S800000, .i32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S1x64, .f32⟩
  | 60 => ⟨S50000x64, .f32⟩
  | 61 => ⟨S50000x64, .f32⟩
  | 62 => ⟨S_, .f32⟩
  | 63 => ⟨S64, .f32⟩
  | 64 => ⟨S64, .f32⟩
  | 65 => ⟨S64, .f32⟩
  | 66 => ⟨S1x64, .f32⟩
  | 67 => ⟨S50000x64, .f32⟩
  | 68 => ⟨S50000x64, .f32⟩
  | 69 => ⟨S1x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S64, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S64, .f32⟩
  | 124 => ⟨S64, .f32⟩
  | 125 => ⟨S64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x64, .f32⟩
  | 8 => ⟨S1x64, .f32⟩
  | 9 => ⟨S50000x64, .f32⟩
  | 10 => ⟨S50000x64, .f32⟩
  | 11 => ⟨S1x64, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S_, .f32⟩
  | 18 => ⟨S64, .f32⟩
  | 19 => ⟨S64, .f32⟩
  | 20 => ⟨S64, .f32⟩
  | 21 => ⟨S1x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S_, .f32⟩
  | 31 => ⟨S50000, .f32⟩
  | 32 => ⟨S_, .f32⟩
  | 33 => ⟨S512, .f32⟩
  | 34 => ⟨S50000x1, .i32⟩
  | 35 => ⟨S512, .f32⟩
  | 36 => ⟨S_, .f32⟩
  | 37 => ⟨S512, .f32⟩
  | 38 => ⟨S512, .f32⟩
  | 39 => ⟨S_, .f32⟩
  | 40 => ⟨S512x10, .f32⟩
  | 41 => ⟨S_, .f32⟩
  | 42 => ⟨S512x64, .f32⟩
  | 43 => ⟨S50000x1, .i32⟩
  | 44 => ⟨S512x64, .f32⟩
  | 45 => ⟨S512x1, .f32⟩
  | 46 => ⟨S512x64, .f32⟩
  | 47 => ⟨S512x64, .f32⟩
  | 48 => ⟨S512x10, .f32⟩
  | 49 => ⟨S1x10, .f32⟩
  | 50 => ⟨S512x10, .f32⟩
  | 51 => ⟨S512x10, .f32⟩
  | 52 => ⟨S512x1, .f32⟩
  | 53 => ⟨S512x10, .f32⟩
  | 54 => ⟨S512x10, .f32⟩
  | 55 => ⟨S512x10, .f32⟩
  | 56 => ⟨S_, .f32⟩
  | 57 => ⟨S512x64, .f32⟩
  | 58 => ⟨S50000x1, .i32⟩
  | 59 => ⟨S512x64, .f32⟩
  | 60 => ⟨S512x1, .f32⟩
  | 61 => ⟨S512x64, .f32⟩
  | 62 => ⟨S512x64, .f32⟩
  | 63 => ⟨S512x10, .f32⟩
  | 64 => ⟨S1x10, .f32⟩
  | 65 => ⟨S512x10, .f32⟩
  | 66 => ⟨S512x10, .f32⟩
  | 67 => ⟨S512x1, .f32⟩
  | 68 => ⟨S512x10, .f32⟩
  | 69 => ⟨S512x10, .f32⟩
  | 70 => ⟨S512x10, .f32⟩
  | 71 => ⟨S_, .f32⟩
  | 72 => ⟨S512x64, .f32⟩
  | 73 => ⟨S50000x1, .i32⟩
  | 74 => ⟨S512x64, .f32⟩
  | 75 => ⟨S512x1, .f32⟩
  | 76 => ⟨S512x64, .f32⟩
  | 77 => ⟨S512x64, .f32⟩
  | 78 => ⟨S512x10, .f32⟩
  | 79 => ⟨S1x10, .f32⟩
  | 80 => ⟨S512x10, .f32⟩
  | 81 => ⟨S512x10, .f32⟩
  | 82 => ⟨S512x1, .f32⟩
  | 83 => ⟨S512x10, .f32⟩
  | 84 => ⟨S512x10, .f32⟩
  | 85 => ⟨S512x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c : Ref sig .tc := ⟨.hbm, 38, rfl⟩
abbrev main_v4 : Ref sig .tc := ⟨.hbm, 39, rfl⟩
abbrev main_v5 : Ref sig .tc := ⟨.hbm, 40, rfl⟩
abbrev main_c_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_2 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_3 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_4 : Ref sig .tc := ⟨.hbm, 95, rfl⟩
abbrev main_v55 : Ref sig .tc := ⟨.hbm, 96, rfl⟩
abbrev main_v56 : Ref sig .tc := ⟨.hbm, 97, rfl⟩
abbrev main_c_5 : Ref sig .tc := ⟨.hbm, 98, rfl⟩
abbrev main_v57 : Ref sig .tc := ⟨.hbm, 99, rfl⟩
abbrev main_v58 : Ref sig .tc := ⟨.hbm, 100, rfl⟩
abbrev main_c_6 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_7 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_8 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_9 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_10 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_11 : Ref sig .tc := ⟨.hbm, 155, rfl⟩
abbrev main_v108 : Ref sig .tc := ⟨.hbm, 156, rfl⟩
abbrev main_v109 : Ref sig .tc := ⟨.hbm, 157, rfl⟩
abbrev main_cst_12 : Ref sig .tc := ⟨.hbm, 158, rfl⟩
abbrev main_v110 : Ref sig .tc := ⟨.hbm, 159, rfl⟩
abbrev main_cst_13 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_14 : Ref sig .tc := ⟨.hbm, 164, rfl⟩
abbrev main_v114 : Ref sig .tc := ⟨.hbm, 165, rfl⟩
abbrev main_v115 : Ref sig .tc := ⟨.hbm, 166, rfl⟩
abbrev main_cst_15 : Ref sig .tc := ⟨.hbm, 167, rfl⟩
abbrev main_v116 : Ref sig .tc := ⟨.hbm, 168, rfl⟩
abbrev main_cst_16 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_17 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_18 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S_S512x10 : S_.BroadcastsInDim S512x10 (![] : Fin 0 → Fin S512x10.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  slices_S512x3_S512x1_0_0 : S512x3.Slices ![0, 0] S512x1
  bcast_S512x1_S512x10_0_1 : S512x1.BroadcastsInDim S512x10 (![0, 1] : Fin 2 → Fin S512x10.rank)
  slices_S512x3_S512x1_0_1 : S512x3.Slices ![0, 1] S512x1
  slices_S512x3_S512x1_0_2 : S512x3.Slices ![0, 2] S512x1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1
  dot_S512x64_S64x10_S512x10_1_0_0_1_n_n_wf : DotDims.WF S512x64 S64x10 S512x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibRowLayers.lean ====
/-
  One dense layer of a multilayer network, read one row at a time over the extended reals.

  A dense layer sends a row `r` (of length K) to the row whose entry q is `∑ k, r k · W (k, q) + b q`: a product with a
  weight matrix and a bias added. Because entry (a, q) of `X · W + b` only looks at row a of `X`, a row block of the
  product can be computed from the same row block of `X`: this is what lets a kernel that walks over row blocks agree
  with one whole-matrix product. The layer is met in two spellings.

  * The accumulating spelling multiplies into a zero accumulator and stretches a one-row bias down the rows.
  * The host spelling uses the plain product and stretches the one-row bias by a dimension map.

  Both are read here at an entry (a, q) as `dense` of row a of the left operand. The rectifier `max · 0` is likewise met
  as a maximum with a splat of zero and as a maximum with a scalar zero stretched to the whole shape.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«116199_j10170482557046_1_alg».proof.Proof.LibColumnBlocks
import proofs.«116199_j10170482557046_1_alg».proof.Proof.LibCastForms

/-- For a literal product record `d` of two matrices: the left operand's row coordinate is the result's row coordinate. -/
macro "dot_lhs0" d:ident : tactic =>
  `(tactic| (intro j k
             unfold Idealize.ShloMosaic.DotDims.lhsIdx
             rw [dif_neg (show ¬(0 : Fin 2) ∈ ($d).lhsBatch by decide), dif_pos (show (0 : Fin 2) ∈ ($d).lhsNonContracting by decide)]
             rfl))

/-- For a literal product record `d` of two matrices: the right operand's column coordinate is the result's column coordinate. -/
macro "dot_rhs1" d:ident : tactic =>
  `(tactic| (intro j k
             unfold Idealize.ShloMosaic.DotDims.rhsIdx
             rw [dif_neg (show ¬(1 : Fin 2) ∈ ($d).rhsBatch by decide), dif_pos (show (1 : Fin 2) ∈ ($d).rhsNonContracting by decide)]
             rfl))

noncomputable section

namespace Cert.LibRowLayers

open Idealize.ShloMosaic Idealize.ShloMosaic.ValueIdx

/-- Entry q of the dense layer's image of the row `r`: `∑ k, r k · W (k, q) + b q`. -/
def dense {K H : ℕ} (r : Fin K → EReal) (W : (⟨2, ![K, H]⟩ : Shape).Idx → EReal) (b : Fin H → EReal) (q : Fin H) : EReal :=
  (∑ k : Fin K, r k * W (ix2 k q)) + b q

/-- The layer's value only depends on the row's entries. -/
theorem dense_congr {K H : ℕ} {r r' : Fin K → EReal} (W : (⟨2, ![K, H]⟩ : Shape).Idx → EReal) {b b' : Fin H → EReal} (q : Fin H)
    (hr : ∀ k, r k = r' k) (hb : b q = b' q) : dense r W b q = dense r' W b' q := by
  unfold dense
  rw [hb]
  exact congrArg (· + b' q) (Finset.sum_congr rfl fun k _ => by rw [hr k])

section Forms
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The accumulating spelling at (p, q): the layer applied to row p of the left operand. -/
theorem tile_dense (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    addf (matmul d prec x w (constant ⟨2, ![A, B]⟩ .f32 0x00000000#32)) (broadcastTo ⟨2, ![A, B]⟩ b hb) (ix2 p q)
      = dense (fun k => x (ix2 p k)) w (fun j => b (ix2 (0 : Fin 1) j)) q := by
  rw [addf_apply, LibColumnBlocks.matmul_zero_apply d hr hs hlc hrc hl0 hr1 x w p q prec, broadcastTo_1b_ab_apply b hb p q]
  rfl

include hr hs hlc hrc hl0 hr1 in
/-- The host spelling at (a, q): the layer applied to row a of the left operand. -/
theorem host_dense (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) (a : Fin A) (q : Fin B) :
    addf (Host.dotGeneral d prec x w) (broadcastInDim ⟨2, ![A, B]⟩ (![0, 1] : Fin 2 → Fin 2) hb b) (ix2 a q)
      = dense (fun k => x (ix2 a k)) w (fun j => b (ix2 (0 : Fin 1) j)) q := by
  rw [addf_apply, LibColumnBlocks.hostDot_apply d hr hs hlc hrc hl0 hr1 x w a q prec, LibCastForms.bcast_1b_ab_apply b hb a q]
  rfl

end Forms

/-- The rectifier as a maximum with a splat of zero. -/
theorem tile_relu {s : Shape} (v : FVec Ideal s .f32) (i : s.Idx) :
    maximumf v (broadcast s (Scalar.ofBits (F := Ideal) .f32 0x00000000#32)) i = max (v i) 0 := by
  rw [maximumf_apply, broadcast_apply]
  show max _ (Ideal.ofBits .f32 0x00000000#32) = _
  rw [Ideal.ofBits_zero_f32]

/-- The rectifier as a maximum with a scalar zero stretched to the whole shape. -/
theorem host_relu {s : Shape} (v : FVec Ideal s .f32) (hz : (⟨0, ![]⟩ : Shape).BroadcastsInDim s ![]) (i : s.Idx) :
    maximumf v (broadcastInDim s ![] hz (constant (F := Ideal) ⟨0, ![]⟩ .f32 0x00000000#32)) i = max (v i) 0 := by
  rw [maximumf_apply, broadcastInDim_scalar_apply, constant_apply, Ideal.ofBits_zero_f32]

end Cert.LibRowLayers

end
-- ==== Proof.Spec.lean ====
/-
  The network's arithmetic, one entry at a time, over the extended reals.

  One message-passing layer sends a node's row `z = h + a` (its own features plus the sum over its in-edges) through
    hidden k = max (g₁ k · (dense z W₁ b₁ k − μ₁ k) · rsqrt (σ₁ k + ε) + β₁ k) 0
    out q    = max (g₂ q · (dense hidden W₂ b₂ q − μ₂ q) · rsqrt (σ₂ q + ε) + β₂ q) 0
  where `dense r W b q = ∑ k, r k · W (k, q) + b q`. Entry (a, q) of the layer's output only looks at row a of its two
  inputs, so a row block of the output is the same function of the same row block of the inputs.

  The read-out sends three pooled rows through one dense layer each and adds them with per-graph weights:
    out (a, q) = dense p₀ W₀ c₀ q · ω (a, 0) + dense p₁ W₁ c₁ q · ω (a, 1) + dense p₂ W₂ c₂ q · ω (a, 2).
-/
import Idealize.ShloMosaic.PureOps.Ideal.Laws
import Idealize.ShloMosaic.Lib.ValueIdx
import proofs.«116199_j10170482557046_1_alg».proof.Proof.LibRowLayers

noncomputable section

namespace Cert.Spec

open Idealize.ShloMosaic Idealize.ShloMosaic.ValueIdx Cert.LibRowLayers

/-- The offset added to a running variance before the reciprocal square root. -/
def eps : EReal := Ideal.ofBits .f32 0x3727C5AC#32

/-- Normalisation of one entry `t` with scale `g`, shift `b`, running mean `mu` and running variance `var`. -/
def nrm (g b mu var t : EReal) : EReal := g * (t - mu) * Ideal.rsqrt (var + eps) + b

/-- Entry k of the hidden row of a layer, from the node's row `z`. -/
def hiddenRow (z : Fin 64 → EReal) (w1 : (⟨2, ![64, 64]⟩ : Shape).Idx → EReal) (b1 g1 be1 mu1 var1 : Fin 64 → EReal)
    (k : Fin 64) : EReal :=
  max (nrm (g1 k) (be1 k) (mu1 k) (var1 k) (dense z w1 b1 k)) 0

/-- Entry q of a layer's output row, from the node's row `z`. -/
def layerRow (z : Fin 64 → EReal) (w1 : (⟨2, ![64, 64]⟩ : Shape).Idx → EReal) (b1 g1 be1 mu1 var1 : Fin 64 → EReal)
    (w2 : (⟨2, ![64, 64]⟩ : Shape).Idx → EReal) (b2 g2 be2 mu2 var2 : Fin 64 → EReal) (q : Fin 64) : EReal :=
  max (nrm (g2 q) (be2 q) (mu2 q) (var2 q) (dense (hiddenRow z w1 b1 g1 be1 mu1 var1) w2 b2 q)) 0

/-- The layer's value only depends on the row's entries. -/
theorem layerRow_congr {z z' : Fin 64 → EReal} (w1 : (⟨2, ![64, 64]⟩ : Shape).Idx → EReal) (b1 g1 be1 mu1 var1 : Fin 64 → EReal)
    (w2 : (⟨2, ![64, 64]⟩ : Shape).Idx → EReal) (b2 g2 be2 mu2 var2 : Fin 64 → EReal) (q : Fin 64) (hz : ∀ k, z k = z' k) :
    layerRow z w1 b1 g1 be1 mu1 var1 w2 b2 g2 be2 mu2 var2 q = layerRow z' w1 b1 g1 be1 mu1 var1 w2 b2 g2 be2 mu2 var2 q := by
  rw [show z = z' from funext hz]

/-- A whole layer: entry (a, q) is `layerRow` of row a of `h + a`. -/
def layer (h a : (⟨2, ![50000, 64]⟩ : Shape).Idx → EReal) (w1 : (⟨2, ![64, 64]⟩ : Shape).Idx → EReal)
    (b1 g1 be1 mu1 var1 : Fin 64 → EReal) (w2 : (⟨2, ![64, 64]⟩ : Shape).Idx → EReal) (b2 g2 be2 mu2 var2 : Fin 64 → EReal) :
    (⟨2, ![50000, 64]⟩ : Shape).Idx → EReal :=
  fun i => layerRow (fun k => h (ix2 (n0 := 50000) (n1 := 64) (i 0) k) + a (ix2 (n0 := 50000) (n1 := 64) (i 0) k))
    w1 b1 g1 be1 mu1 var1 w2 b2 g2 be2 mu2 var2 (i 1)

theorem layer_apply (h a : (⟨2, ![50000, 64]⟩ : Shape).Idx → EReal) (w1 : (⟨2, ![64, 64]⟩ : Shape).Idx → EReal)
    (b1 g1 be1 mu1 var1 : Fin 64 → EReal) (w2 : (⟨2, ![64, 64]⟩ : Shape).Idx → EReal) (b2 g2 be2 mu2 var2 : Fin 64 → EReal)
    (p : Fin 50000) (q : Fin 64) :
    layer h a w1 b1 g1 be1 mu1 var1 w2 b2 g2 be2 mu2 var2 (ix2 p q)
      = layerRow (fun k => h (ix2 p k) + a (ix2 p k)) w1 b1 g1 be1 mu1 var1 w2 b2 g2 be2 mu2 var2 q := rfl

/-- The read-out: entry (a, q) from row a of the three pooled arrays and of the weights `ω`. -/
def readout (p0 p1 p2 : (⟨2, ![512, 64]⟩ : Shape).Idx → EReal) (w0 : (⟨2, ![64, 10]⟩ : Shape).Idx → EReal) (c0 : Fin 10 → EReal)
    (w1 : (⟨2, ![64, 10]⟩ : Shape).Idx → EReal) (c1 : Fin 10 → EReal) (w2 : (⟨2, ![64, 10]⟩ : Shape).Idx → EReal) (c2 : Fin 10 → EReal)
    (om : (⟨2, ![512, 3]⟩ : Shape).Idx → EReal) : (⟨2, ![512, 10]⟩ : Shape).Idx → EReal :=
  fun i => dense (fun k => p0 (ix2 (n0 := 512) (n1 := 64) (i 0) k)) w0 c0 (i 1) * om (ix2 (n0 := 512) (n1 := 3) (i 0) 0)
    + dense (fun k => p1 (ix2 (n0 := 512) (n1 := 64) (i 0) k)) w1 c1 (i 1) * om (ix2 (n0 := 512) (n1 := 3) (i 0) 1)
    + dense (fun k => p2 (ix2 (n0 := 512) (n1 := 64) (i 0) k)) w2 c2 (i 1) * om (ix2 (n0 := 512) (n1 := 3) (i 0) 2)

theorem readout_apply (p0 p1 p2 : (⟨2, ![512, 64]⟩ : Shape).Idx → EReal) (w0 : (⟨2, ![64, 10]⟩ : Shape).Idx → EReal) (c0 : Fin 10 → EReal)
    (w1 : (⟨2, ![64, 10]⟩ : Shape).Idx → EReal) (c1 : Fin 10 → EReal) (w2 : (⟨2, ![64, 10]⟩ : Shape).Idx → EReal) (c2 : Fin 10 → EReal)
    (om : (⟨2, ![512, 3]⟩ : Shape).Idx → EReal) (a : Fin 512) (q : Fin 10) :
    readout p0 p1 p2 w0 c0 w1 c1 w2 c2 om (ix2 a q)
      = dense (fun k => p0 (ix2 a k)) w0 c0 q * om (ix2 a 0) + dense (fun k => p1 (ix2 a k)) w1 c1 q * om (ix2 a 1)
        + dense (fun k => p2 (ix2 a k)) w2 c2 q * om (ix2 a 2) := rfl

end Cert.Spec

end
-- ==== Proof.LibNormRows.lean ====
/-
  Normalise-and-rectify of a matrix by one-row parameters, read at an entry over the extended reals.

  For a matrix `t` of shape [A,B] and parameters `g`, `β`, `μ`, `σ` indexed by the column, the map
    t (a, q) ↦ max (g q · (t (a, q) − μ q) · rsqrt (σ q + ε) + β q) 0
  is met in two spellings.

  * The tile spelling holds each parameter as a one-row matrix [1,B], recasts it to its own shape, and stretches it down
    the rows; ε and the zero of the rectifier are scalar splats.
  * The host spelling holds each parameter as a vector [B], places it as the one row of a [1,B] matrix and stretches that
    by a dimension map; ε is a scalar stretched to [B], the zero a scalar stretched to [A,B]; the reciprocal square root is
    the host's.

  Both read, at (a, q), the same expression of the entries. Also here: a one-column matrix [A,1] stretched along the
  columns in the tile spelling reads, at (a, b), its entry (a, 0).
-/
import Idealize.ShloMosaic.PureOps.Ideal.Laws
import Idealize.ShloMosaic.Lib.ValueIdx
import Idealize.ShloMosaic.Lib.ValueLayout
import Idealize.ShloMosaic.Lib.Pipeline.Value
import proofs.«116199_j10170482557046_1_alg».proof.Proof.LibCastForms
import proofs.«116199_j10170482557046_1_alg».proof.Proof.LibRowLayers

noncomputable section

namespace Cert.LibNormRows

open Idealize.ShloMosaic Idealize.ShloMosaic.ValueIdx Cert.LibRowLayers

variable {α : Type}

/-- A column stretched over `b` columns (tile spelling): entry (p, c) is the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The expression both spellings read at an entry. -/
def normRelu (g be mu var e t : EReal) : EReal := max (g * (t - mu) * Ideal.rsqrt (var + e) + be) 0

/-- The tile spelling at (p, q). -/
theorem tile_normRelu {A B : ℕ} (t : FVec Ideal ⟨2, ![A, B]⟩ .f32) (g be mu var : FVec Ideal ⟨2, ![1, B]⟩ .f32)
    (hc : (⟨2, ![1, B]⟩ : Shape).ShapeCasts ⟨2, ![1, B]⟩) (hb : (⟨2, ![1, B]⟩ : Shape).Broadcasts ⟨2, ![A, B]⟩)
    (e : BitVec 32) (p : Fin A) (q : Fin B) :
    maximumf (addf (mulf (mulf (broadcastTo ⟨2, ![A, B]⟩ (shapeCast ⟨2, ![1, B]⟩ g hc) hb)
        (subf t (broadcastTo ⟨2, ![A, B]⟩ (shapeCast ⟨2, ![1, B]⟩ mu hc) hb)))
        (broadcastTo ⟨2, ![A, B]⟩ (rsqrt (addf (shapeCast ⟨2, ![1, B]⟩ var hc)
          (broadcast ⟨2, ![1, B]⟩ (Scalar.ofBits (F := Ideal) .f32 e)))) hb))
        (broadcastTo ⟨2, ![A, B]⟩ (shapeCast ⟨2, ![1, B]⟩ be hc) hb))
      (broadcast ⟨2, ![A, B]⟩ (Scalar.ofBits (F := Ideal) .f32 0x00000000#32)) (ix2 p q)
      = normRelu (g (ix2 (0 : Fin 1) q)) (be (ix2 (0 : Fin 1) q)) (mu (ix2 (0 : Fin 1) q)) (var (ix2 (0 : Fin 1) q))
          (Ideal.ofBits .f32 e) (t (ix2 p q)) := by
  rw [tile_relu, addf_apply, mulf_apply, mulf_apply, subf_apply, broadcastTo_1b_ab_apply, broadcastTo_1b_ab_apply,
    broadcastTo_1b_ab_apply, broadcastTo_1b_ab_apply, shapeCast_self, shapeCast_self, shapeCast_self, shapeCast_self]
  rfl

/-- The host spelling at (a, q). -/
theorem host_normRelu {A B : ℕ} (t : FVec Ideal ⟨2, ![A, B]⟩ .f32) (g be mu var : FVec Ideal ⟨1, ![B]⟩ .f32)
    (hr : (⟨1, ![B]⟩ : Shape).BroadcastsInDim ⟨2, ![1, B]⟩ (![1] : Fin 1 → Fin 2))
    (hb : (⟨2, ![1, B]⟩ : Shape).BroadcastsInDim ⟨2, ![A, B]⟩ (![0, 1] : Fin 2 → Fin 2))
    (hs : (⟨0, ![]⟩ : Shape).BroadcastsInDim ⟨1, ![B]⟩ ![]) (hz : (⟨0, ![]⟩ : Shape).BroadcastsInDim ⟨2, ![A, B]⟩ ![])
    (e : BitVec 32) (a : Fin A) (q : Fin B) :
    maximumf (addf (mulf (mulf (broadcastInDim ⟨2, ![A, B]⟩ (![0, 1] : Fin 2 → Fin 2) hb (broadcastInDim ⟨2, ![1, B]⟩ (![1] : Fin 1 → Fin 2) hr g))
        (subf t (broadcastInDim ⟨2, ![A, B]⟩ (![0, 1] : Fin 2 → Fin 2) hb (broadcastInDim ⟨2, ![1, B]⟩ (![1] : Fin 1 → Fin 2) hr mu))))
        (broadcastInDim ⟨2, ![A, B]⟩ (![0, 1] : Fin 2 → Fin 2) hb (broadcastInDim ⟨2, ![1, B]⟩ (![1] : Fin 1 → Fin 2) hr
          (Host.rsqrt (addf var (broadcastInDim ⟨1, ![B]⟩ ![] hs (constant (F := Ideal) ⟨0, ![]⟩ .f32 e)))))))
        (broadcastInDim ⟨2, ![A, B]⟩ (![0, 1] : Fin 2 → Fin 2) hb (broadcastInDim ⟨2, ![1, B]⟩ (![1] : Fin 1 → Fin 2) hr be)))
      (broadcastInDim ⟨2, ![A, B]⟩ ![] hz (constant (F := Ideal) ⟨0, ![]⟩ .f32 0x00000000#32)) (ix2 a q)
      = normRelu (g (ix1 q)) (be (ix1 q)) (mu (ix1 q)) (var (ix1 q)) (Ideal.ofBits .f32 e) (t (ix2 a q)) := by
  rw [host_relu, addf_apply, mulf_apply, mulf_apply, subf_apply, LibCastForms.bcast_1b_ab_apply, LibCastForms.bcast_1b_ab_apply,
    LibCastForms.bcast_1b_ab_apply, LibCastForms.bcast_1b_ab_apply, LibCastForms.bcast_row, LibCastForms.bcast_row,
    LibCastForms.bcast_row, LibCastForms.bcast_row]
  rfl

end Cert.LibNormRows

end
-- ==== Proof.HostForms.lean ====
/-
  The reference's dense stretches as functions of their operands, and what they compute entry by entry.

  `hostLayer` is one message-passing layer in the host spelling: the sum `h + a`, a product with `W₁`, a bias, a
  normalisation, a rectifier, a product with `W₂`, a bias, a normalisation and a rectifier. `hostReadout` is the read-out:
  three products with a bias each, each scaled by one column of the weights `ω`, added onto a zero array from the left.
  `hostAggr` (the sum over in-edges: a gather of the source rows, scatter-added at the destination rows) and `hostPool`
  (the per-graph mean: a scatter-add by graph index divided by the clamped graph sizes) are carried as opaque functions:
  both programs apply the same ones.

  Entry by entry `hostLayer` is `Spec.layer` and `hostReadout` is `Spec.readout`; adding onto zero from the left changes
  nothing on the extended reals.
-/
import proofs.«116199_j10170482557046_1_alg».proof.Proof.Gen.ReferenceIdeal.Read
import proofs.«116199_j10170482557046_1_alg».proof.Proof.Spec
import proofs.«116199_j10170482557046_1_alg».proof.Proof.LibNormRows

noncomputable section

namespace Cert.HostForms

open Cert.ReferenceIdeal Cert.ReferenceIdeal.Gen Idealize.ShloMosaic Idealize.ShloMosaic.TcCoe Idealize.SL.Sem Idealize.ShloMosaic.StableHlo
open Idealize.ShloMosaic.ValueIdx Cert.LibRowLayers Cert.LibNormRows Cert.Spec

/-- A vector as a function of its one coordinate. -/
abbrev vec {n : ℕ} (x : (⟨1, ![n]⟩ : Shape).Idx → EReal) : Fin n → EReal := fun j => x (ix1 j)

/-- One dense-normalise-rectify stage in the host spelling. -/
def hostStage (z : FVec Ideal S50000x64 .f32) (w : FVec Ideal S64x64 .f32) (b g be mu var : FVec Ideal S64 .f32) : FVec Ideal S50000x64 .f32 :=
  maximumf (addf (mulf (mulf (broadcastInDim S50000x64 ![0, 1] bcast_S1x64_S50000x64_0_1 (broadcastInDim S1x64 ![1] bcast_S64_S1x64_1 g))
      (subf (addf (Host.dotGeneral dot_S50000x64_S64x64_S50000x64_1_0_0_1_n_n none z w)
          (broadcastInDim S50000x64 ![0, 1] bcast_S1x64_S50000x64_0_1 (broadcastInDim S1x64 ![1] bcast_S64_S1x64_1 b)))
        (broadcastInDim S50000x64 ![0, 1] bcast_S1x64_S50000x64_0_1 (broadcastInDim S1x64 ![1] bcast_S64_S1x64_1 mu))))
      (broadcastInDim S50000x64 ![0, 1] bcast_S1x64_S50000x64_0_1 (broadcastInDim S1x64 ![1] bcast_S64_S1x64_1
        (Host.rsqrt (addf var (broadcastInDim S64 ![] bcast_S_S64 (constant S_ .f32 0x3727C5AC#32)))))))
      (broadcastInDim S50000x64 ![0, 1] bcast_S1x64_S50000x64_0_1 (broadcastInDim S1x64 ![1] bcast_S64_S1x64_1 be)))
    (broadcastInDim S50000x64 ![] bcast_S_S50000x64 (constant S_ .f32 0x00000000#32))

/-- One layer in the host spelling. -/
def hostLayer (h a : FVec Ideal S50000x64 .f32) (w1 : FVec Ideal S64x64 .f32) (b1 g1 be1 mu1 var1 : FVec Ideal S64 .f32)
    (w2 : FVec Ideal S64x64 .f32) (b2 g2 be2 mu2 var2 : FVec Ideal S64 .f32) : FVec Ideal S50000x64 .f32 :=
  hostStage (hostStage (addf h a) w1 b1 g1 be1 mu1 var1) w2 b2 g2 be2 mu2 var2

theorem dot_facts :
    dot_S50000x64_S64x64_S50000x64_1_0_0_1_n_n.contr.rank = 1
    ∧ dot_S50000x64_S64x64_S50000x64_1_0_0_1_n_n.lhsContracting = [1]
    ∧ dot_S50000x64_S64x64_S50000x64_1_0_0_1_n_n.rhsContracting = [0] := ⟨rfl, rfl, rfl⟩

/-- A stage at (a, q): normalise-and-rectify of the dense layer applied to row a. -/
theorem hostStage_apply (z : FVec Ideal S50000x64 .f32) (w : FVec Ideal S64x64 .f32) (b g be mu var : FVec Ideal S64 .f32)
    (a : Fin 50000) (q : Fin 64) :
    hostStage z w b g be mu var (ix2 a q)
      = max (nrm (vec g q) (vec be q) (vec mu q) (vec var q) (dense (fun k => z (ix2 a k)) w (vec b) q)) 0 := by
  unfold hostStage
  rw [host_normRelu]
  unfold normRelu nrm
  rw [host_dense dot_S50000x64_S64x64_S50000x64_1_0_0_1_n_n rfl rfl rfl rfl
    (by dot_lhs0 dot_S50000x64_S64x64_S50000x64_1_0_0_1_n_n) (by dot_rhs1 dot_S50000x64_S64x64_S50000x64_1_0_0_1_n_n)]
  refine congrArg (fun t => max (vec g q * (t - vec mu q) * Ideal.rsqrt (vec var q + Ideal.ofBits .f32 0x3727C5AC#32) + vec be q) 0) ?_
  exact dense_congr w q (fun _ => rfl) (LibCastForms.bcast_row b bcast_S64_S1x64_1 0 q)

/-- A layer in the host spelling is `Spec.layer`. -/
theorem hostLayer_eq (h a : FVec Ideal S50000x64 .f32) (w1 : FVec Ideal S64x64 .f32) (b1 g1 be1 mu1 var1 : FVec Ideal S64 .f32)
    (w2 : FVec Ideal S64x64 .f32) (b2 g2 be2 mu2 var2 : FVec Ideal S64 .f32) :
    hostLayer h a w1 b1 g1 be1 mu1 var1 w2 b2 g2 be2 mu2 var2
      = layer h a w1 (vec b1) (vec g1) (vec be1) (vec mu1) (vec var1) w2 (vec b2) (vec g2) (vec be2) (vec mu2) (vec var2) := by
  funext j
  obtain ⟨a', q, rfl⟩ : ∃ (a' : Fin 50000) (q : Fin 64), j = ix2 a' q := ⟨j 0, j 1, eq_ix2 j⟩
  rw [layer_apply]
  unfold hostLayer layerRow
  rw [hostStage_apply]
  refine congrArg (fun t => max (nrm (vec g2 q) (vec be2 q) (vec mu2 q) (vec var2 q) t) 0) ?_
  refine dense_congr w2 q (fun k => ?_) rfl
  rw [hostStage_apply]
  rfl

/-! ## The read-out -/

/-- One head of the read-out in the host spelling: a dense layer of the pooled rows, scaled row by row by a column. -/
def hostHead (p : FVec Ideal S512x64 .f32) (w : FVec Ideal S64x10 .f32) (c : FVec Ideal S10 .f32) (col : FVec Ideal S512x1 .f32) :
    FVec Ideal S512x10 .f32 :=
  mulf (addf (Host.dotGeneral dot_S512x64_S64x10_S512x10_1_0_0_1_n_n none p w)
      (broadcastInDim S512x10 ![0, 1] bcast_S1x10_S512x10_0_1 (broadcastInDim S1x10 ![1] bcast_S10_S1x10_1 c)))
    (broadcastInDim S512x10 ![0, 1] bcast_S512x1_S512x10_0_1 col)

/-- The read-out in the host spelling: the three heads added, one after the other, onto a zero array. -/
def hostReadout (p0 p1 p2 : FVec Ideal S512x64 .f32) (w0 : FVec Ideal S64x10 .f32) (c0 : FVec Ideal S10 .f32)
    (w1 : FVec Ideal S64x10 .f32) (c1 : FVec Ideal S10 .f32) (w2 : FVec Ideal S64x10 .f32) (c2 : FVec Ideal S10 .f32)
    (om : FVec Ideal S512x3 .f32) : FVec Ideal S512x10 .f32 :=
  addf (addf (addf (broadcastInDim S512x10 ![] bcast_S_S512x10 (constant S_ .f32 0x00000000#32))
        (hostHead p0 w0 c0 (extractStridedSlice S512x1 ![0, 0] om slices_S512x3_S512x1_0_0)))
      (hostHead p1 w1 c1 (extractStridedSlice S512x1 ![0, 1] om slices_S512x3_S512x1_0_1)))
    (hostHead p2 w2 c2 (extractStridedSlice S512x1 ![0, 2] om slices_S512x3_S512x1_0_2))

/-- A head at (a, q). -/
theorem hostHead_apply (p : FVec Ideal S512x64 .f32) (w : FVec Ideal S64x10 .f32) (c : FVec Ideal S10 .f32) (col : FVec Ideal S512x1 .f32)
    (a : Fin 512) (q : Fin 10) :
    hostHead p w c col (ix2 a q) = dense (fun k => p (ix2 a k)) w (vec c) q * col (ix2 a (0 : Fin 1)) := by
  unfold hostHead
  rw [mulf_apply, host_dense dot_S512x64_S64x10_S512x10_1_0_0_1_n_n rfl rfl rfl rfl
    (by dot_lhs0 dot_S512x64_S64x10_S512x10_1_0_0_1_n_n) (by dot_rhs1 dot_S512x64_S64x10_S512x10_1_0_0_1_n_n),
    LibCastForms.bcast_a1_ab_apply]
  refine congrArg (· * col (ix2 a (0 : Fin 1))) ?_
  exact dense_congr w q (fun _ => rfl) (LibCastForms.bcast_row c bcast_S10_S1x10_1 0 q)

/-- The read-out in the host spelling is `Spec.readout`. -/
theorem hostReadout_eq (p0 p1 p2 : FVec Ideal S512x64 .f32) (w0 : FVec Ideal S64x10 .f32) (c0 : FVec Ideal S10 .f32)
    (w1 : FVec Ideal S64x10 .f32) (c1 : FVec Ideal S10 .f32) (w2 : FVec Ideal S64x10 .f32) (c2 : FVec Ideal S10 .f32)
    (om : FVec Ideal S512x3 .f32) :
    hostReadout p0 p1 p2 w0 c0 w1 c1 w2 c2 om = readout p0 p1 p2 w0 (vec c0) w1 (vec c1) w2 (vec c2) om := by
  funext j
  obtain ⟨a, q, rfl⟩ : ∃ (a : Fin 512) (q : Fin 10), j = ix2 a q := ⟨j 0, j 1, eq_ix2 j⟩
  rw [readout_apply]
  unfold hostReadout
  rw [addf_apply, addf_apply, addf_apply, hostHead_apply, hostHead_apply, hostHead_apply, broadcastInDim_scalar_apply,
    constant_apply, Ideal.ofBits_zero_f32, zero_add,
    slice2_axis1_apply 0 om slices_S512x3_S512x1_0_0 a 0 0 rfl, slice2_axis1_apply 1 om slices_S512x3_S512x1_0_1 a 0 1 rfl,
    slice2_axis1_apply 2 om slices_S512x3_S512x1_0_2 a 0 2 rfl]

/-! ## The two irregular stretches, carried whole -/

/-- The sum over in-edges from the source and destination index vectors: row d of the result is the sum of the rows
    `h (s e)` (a negative source index wrapped once by the number of nodes) over the edges e with `d e = d`. -/
def aggrFrom (h : FVec Ideal S50000x64 .f32) (s d : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d)
    (Host.gather gather_S50000x64_S800000x1_S800000x64_1_0_n_n_0_1_164 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The sum over in-edges, from the edge list: its two rows are the source and the destination indices. -/
def hostAggr (h : FVec Ideal S50000x64 .f32) (ei : IVec S2x800000 32) : FVec Ideal S50000x64 .f32 :=
  aggrFrom h (Read.val_main_v1 (F := Ideal) ei) (Read.val_main_v3 (F := Ideal) ei)

/-- The per-graph mean of the rows of `h`: the sum by graph index over the graph's size clamped below by one. -/
def hostPool (h : FVec Ideal S50000x64 .f32) (b : IVec S50000 32) : FVec Ideal S512x64 .f32 :=
  Host.divf (Host.scatterAdd scatter_S512x64_S50000x1_S50000x64_1_0_0_1 (Read.val_main_v117 (F := Ideal)) (Read.val_main_v118 (F := Ideal) b) h)
    (Read.val_main_v121 (F := Ideal) b)

end Cert.HostForms

end
-- ==== Proof.RefValue.lean ====
/-
  The reference's result as one function of the thirty-four arguments.

  `net` is the whole network: two layers, each fed the previous features and their sum over in-edges, then the read-out
  of the per-graph means of the input features and of both layers' outputs. The reference's last stage is `net` of its
  arguments: its dense stretches are `hostLayer` and `hostReadout` of their operands, which are `Spec.layer` and
  `Spec.readout` entry by entry, and its irregular stretches are `hostAggr` and `hostPool` as they stand.
-/
import proofs.«116199_j10170482557046_1_alg».proof.Proof.HostForms

noncomputable section

namespace Cert.RefValue

open Cert.ReferenceIdeal Cert.ReferenceIdeal.Gen Cert.ReferenceIdeal.Read Idealize.ShloMosaic Idealize.ShloMosaic.TcCoe Idealize.SL.Sem
open Cert.Spec Cert.HostForms

/-- The first layer's output. -/
def feat1 (x0 : FVec Ideal S50000x64 .f32) (x1 : IVec S2x800000 32) (x4 : FVec Ideal S64x64 .f32) (x5 x6 x7 x8 x9 : FVec Ideal S64 .f32)
    (x10 : FVec Ideal S64x64 .f32) (x11 x12 x13 x14 x15 : FVec Ideal S64 .f32) : FVec Ideal S50000x64 .f32 :=
  layer x0 (hostAggr x0 x1) x4 (vec x5) (vec x6) (vec x7) (vec x8) (vec x9) x10 (vec x11) (vec x12) (vec x13) (vec x14) (vec x15)

/-- The whole network, as one function of the arguments. -/
def net (x0 : FVec Ideal S50000x64 .f32) (x1 : IVec S2x800000 32) (x2 : IVec S50000 32) (x3 : FVec Ideal S512x3 .f32)
    (x4 : FVec Ideal S64x64 .f32) (x5 x6 x7 x8 x9 : FVec Ideal S64 .f32) (x10 : FVec Ideal S64x64 .f32) (x11 x12 x13 x14 x15 : FVec Ideal S64 .f32)
    (x16 : FVec Ideal S64x64 .f32) (x17 x18 x19 x20 x21 : FVec Ideal S64 .f32) (x22 : FVec Ideal S64x64 .f32) (x23 x24 x25 x26 x27 : FVec Ideal S64 .f32)
    (x28 : FVec Ideal S64x10 .f32) (x29 : FVec Ideal S10 .f32) (x30 : FVec Ideal S64x10 .f32) (x31 : FVec Ideal S10 .f32)
    (x32 : FVec Ideal S64x10 .f32) (x33 : FVec Ideal S10 .f32) : FVec Ideal S512x10 .f32 :=
  readout (hostPool x0 x2) (hostPool (feat1 x0 x1 x4 x5 x6 x7 x8 x9 x10 x11 x12 x13 x14 x15) x2)
    (hostPool (layer (feat1 x0 x1 x4 x5 x6 x7 x8 x9 x10 x11 x12 x13 x14 x15) (hostAggr (feat1 x0 x1 x4 x5 x6 x7 x8 x9 x10 x11 x12 x13 x14 x15) x1) x16 (vec x17) (vec x18) (vec x19) (vec x20) (vec x21)
      x22 (vec x23) (vec x24) (vec x25) (vec x26) (vec x27)) x2)
    x28 (vec x29) x30 (vec x31) x32 (vec x33) x3

section
variable (x0 : FVec Ideal S50000x64 .f32) (x1 : IVec S2x800000 32) (x2 : IVec S50000 32) (x3 : FVec Ideal S512x3 .f32)
    (x4 : FVec Ideal S64x64 .f32) (x5 x6 x7 x8 x9 : FVec Ideal S64 .f32) (x10 : FVec Ideal S64x64 .f32) (x11 x12 x13 x14 x15 : FVec Ideal S64 .f32)
    (x16 : FVec Ideal S64x64 .f32) (x17 x18 x19 x20 x21 : FVec Ideal S64 .f32) (x22 : FVec Ideal S64x64 .f32) (x23 x24 x25 x26 x27 : FVec Ideal S64 .f32)
    (x28 : FVec Ideal S64x10 .f32) (x29 : FVec Ideal S10 .f32) (x30 : FVec Ideal S64x10 .f32) (x31 : FVec Ideal S10 .f32)
    (x32 : FVec Ideal S64x10 .f32) (x33 : FVec Ideal S10 .f32)

theorem aggr0 : val_main_v13 (F := Ideal) x0 x1 = hostAggr x0 x1 := rfl

theorem layer1 : val_main_v56 (F := Ideal) x0 x1 x4 x5 x6 x7 x8 x9 x10 x11 x12 x13 x14 x15 = hostLayer x0 (val_main_v13 (F := Ideal) x0 x1) x4 x5 x6 x7 x8 x9 x10 x11 x12 x13 x14 x15 := rfl

theorem feat1_eq : val_main_v56 (F := Ideal) x0 x1 x4 x5 x6 x7 x8 x9 x10 x11 x12 x13 x14 x15 = feat1 x0 x1 x4 x5 x6 x7 x8 x9 x10 x11 x12 x13 x14 x15 := by
  rw [layer1, aggr0, hostLayer_eq]; rfl

theorem aggr1 : val_main_v66 (F := Ideal) x0 x1 x4 x5 x6 x7 x8 x9 x10 x11 x12 x13 x14 x15 = hostAggr (val_main_v56 (F := Ideal) x0 x1 x4 x5 x6 x7 x8 x9 x10 x11 x12 x13 x14 x15) x1 := rfl

theorem layer2 : val_main_v109 (F := Ideal) x0 x1 x4 x5 x6 x7 x8 x9 x10 x11 x12 x13 x14 x15 x16 x17 x18 x19 x20 x21 x22 x23 x24 x25 x26 x27
    = hostLayer (val_main_v56 (F := Ideal) x0 x1 x4 x5 x6 x7 x8 x9 x10 x11 x12 x13 x14 x15) (val_main_v66 (F := Ideal) x0 x1 x4 x5 x6 x7 x8 x9 x10 x11 x12 x13 x14 x15) x16 x17 x18 x19 x20 x21 x22 x23 x24 x25 x26 x27 := rfl

theorem pool0 : val_main_v122 (F := Ideal) x0 x2 = hostPool x0 x2 := rfl

theorem pool1 : val_main_v136 (F := Ideal) x0 x1 x2 x4 x5 x6 x7 x8 x9 x10 x11 x12 x13 x14 x15 = hostPool (val_main_v56 (F := Ideal) x0 x1 x4 x5 x6 x7 x8 x9 x10 x11 x12 x13 x14 x15) x2 := rfl

theorem pool2 : val_main_v150 (F := Ideal) x0 x1 x2 x4 x5 x6 x7 x8 x9 x10 x11 x12 x13 x14 x15 x16 x17 x18 x19 x20 x21 x22 x23 x24 x25 x26 x27 = hostPool (val_main_v109 (F := Ideal) x0 x1 x4 x5 x6 x7 x8 x9 x10 x11 x12 x13 x14 x15 x16 x17 x18 x19 x20 x21 x22 x23 x24 x25 x26 x27) x2 := rfl

theorem readout_stage : val_main_v158 (F := Ideal) x0 x1 x2 x3 x4 x5 x6 x7 x8 x9 x10 x11 x12 x13 x14 x15 x16 x17 x18 x19 x20 x21 x22 x23 x24 x25 x26 x27 x28 x29 x30 x31 x32 x33
    = hostReadout (val_main_v122 (F := Ideal) x0 x2) (val_main_v136 (F := Ideal) x0 x1 x2 x4 x5 x6 x7 x8 x9 x10 x11 x12 x13 x14 x15)
        (val_main_v150 (F := Ideal) x0 x1 x2 x4 x5 x6 x7 x8 x9 x10 x11 x12 x13 x14 x15 x16 x17 x18 x19 x20 x21 x22 x23 x24 x25 x26 x27) x28 x29 x30 x31 x32 x33 x3 := rfl

/-- The reference's last stage is the network of its arguments. -/
theorem ref_eq_net : val_main_v158 (F := Ideal) x0 x1 x2 x3 x4 x5 x6 x7 x8 x9 x10 x11 x12 x13 x14 x15 x16 x17 x18 x19 x20 x21 x22 x23 x24 x25 x26 x27 x28 x29 x30 x31 x32 x33 = net x0 x1 x2 x3 x4 x5 x6 x7 x8 x9 x10 x11 x12 x13 x14 x15 x16 x17 x18 x19 x20 x21 x22 x23 x24 x25 x26 x27 x28 x29 x30 x31 x32 x33 := by
  rw [readout_stage, hostReadout_eq, pool0, pool1, pool2, layer2, hostLayer_eq, aggr1, feat1_eq]
  rfl

end

/-- The network of equal arguments is the same array. -/
theorem net_congr (x0 : FVec Ideal S50000x64 .f32) (x1 : IVec S2x800000 32) (x2 : IVec S50000 32) (x3 : FVec Ideal S512x3 .f32)
    (x4 : FVec Ideal S64x64 .f32) (x5 x6 x7 x8 x9 : FVec Ideal S64 .f32) (x10 : FVec Ideal S64x64 .f32) (x11 x12 x13 x14 x15 : FVec Ideal S64 .f32)
    (x16 : FVec Ideal S64x64 .f32) (x17 x18 x19 x20 x21 : FVec Ideal S64 .f32) (x22 : FVec Ideal S64x64 .f32) (x23 x24 x25 x26 x27 : FVec Ideal S64 .f32)
    (x28 : FVec Ideal S64x10 .f32) (x29 : FVec Ideal S10 .f32) (x30 : FVec Ideal S64x10 .f32) (x31 : FVec Ideal S10 .f32)
    (x32 : FVec Ideal S64x10 .f32) (x33 : FVec Ideal S10 .f32)
    (y0 : FVec Ideal S50000x64 .f32) (y1 : IVec S2x800000 32) (y2 : IVec S50000 32) (y3 : FVec Ideal S512x3 .f32)
    (y4 : FVec Ideal S64x64 .f32) (y5 y6 y7 y8 y9 : FVec Ideal S64 .f32) (y10 : FVec Ideal S64x64 .f32) (y11 y12 y13 y14 y15 : FVec Ideal S64 .f32)
    (y16 : FVec Ideal S64x64 .f32) (y17 y18 y19 y20 y21 : FVec Ideal S64 .f32) (y22 : FVec Ideal S64x64 .f32) (y23 y24 y25 y26 y27 : FVec Ideal S64 .f32)
    (y28 : FVec Ideal S64x10 .f32) (y29 : FVec Ideal S10 .f32) (y30 : FVec Ideal S64x10 .f32) (y31 : FVec Ideal S10 .f32)
    (y32 : FVec Ideal S64x10 .f32) (y33 : FVec Ideal S10 .f32)
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) (h29 : x29 = y29) (h30 : x30 = y30) (h31 : x31 = y31) (h32 : x32 = y32) (h33 : x33 = y33) :
    net x0 x1 x2 x3 x4 x5 x6 x7 x8 x9 x10 x11 x12 x13 x14 x15 x16 x17 x18 x19 x20 x21 x22 x23 x24 x25 x26 x27 x28 x29 x30 x31 x32 x33 = net y0 y1 y2 y3 y4 y5 y6 y7 y8 y9 y10 y11 y12 y13 y14 y15 y16 y17 y18 y19 y20 y21 y22 y23 y24 y25 y26 y27 y28 y29 y30 y31 y32 y33 := by
  subst h0 h1 h2 h3 h4 h5 h6 h7 h8 h9 h10 h11 h12 h13 h14 h15 h16 h17 h18 h19 h20 h21 h22 h23 h24 h25 h26 h27 h28 h29 h30 h31 h32 h33
  rfl

end Cert.RefValue

end
-- ==== Proof.KRun.lean ====
/-
  The idealized kernel's run, with every buffer named at the end.

  @main is six segments: a stretch of host operations, the first layer's region, a second stretch, the second layer's
  region, a third stretch and the read-out's region. Running them from the launch memory folds the buffer contents
  through each segment in turn; every weakly fair execution terminates, and in its final state every unscoped buffer
  holds what that fold leaves in it (`W6`).
-/
import proofs.«116199_j10170482557046_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer at the fold's value. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Val

end
-- ==== Proof.KBody0.lean ====
/-
  What the first layer's tile program stores, read at an entry.

  The tile holds 2000 rows of the features `h` and of the in-edge sums `a`. Its one store writes, at (p, q), the layer's
  output entry q for the row `h p + a p`: the first product and normalisation give the hidden row, the second product is a
  sum over the hidden row against column q of `W₂`, and the bias, the second normalisation and the rectifier follow.
  The parameters arrive as one-row matrices.
-/
import proofs.«116199_j10170482557046_1_alg».proof.Proof.Gen.KernelIdeal.Skeleton
import proofs.«116199_j10170482557046_1_alg».proof.Proof.Spec
import proofs.«116199_j10170482557046_1_alg».proof.Proof.LibNormRows

noncomputable section

namespace Cert.KernelIdeal.Val

open Cert.KernelIdeal Cert.KernelIdeal.Gen Idealize.ShloMosaic Idealize.ShloMosaic.ValueIdx
open Cert.LibRowLayers Cert.LibNormRows Cert.Spec

/-- The one row of a one-row matrix, as a function of the column. -/
abbrev row {n : ℕ} (x : (⟨2, ![1, n]⟩ : Shape).Idx → EReal) : Fin n → EReal := fun j => x (ix2 (0 : Fin 1) j)

/-- The hidden row of tile row p, contracted against column q of `W₂`. -/
theorem pay0_2_apply (v0 v1 : Vec Ideal S2000x64 .f32) (v4 : Vec Ideal S64x64 .f32) (v8 v12 v14 v20 v27 : Vec Ideal S1x64 .f32)
    (v33 : Vec Ideal S64x64 .f32) (p : Fin 2000) (q : Fin 64) :
    k0_pay2 v0 v1 v4 v8 v12 v14 v20 v27 v33 (ix2 p q)
      = ∑ k : Fin 64, hiddenRow (fun j => v0 (ix2 p j) + v1 (ix2 p j)) v4 (row v8) (row v12) (row v27) (row v14) (row v20) k * v33 (ix2 k q) := by
  unfold k0_pay2
  rw [LibColumnBlocks.matmul_zero_apply dot_S2000x64_S64x64_S2000x64_1_0_0_1_n_n rfl rfl rfl rfl
    (by dot_lhs0 dot_S2000x64_S64x64_S2000x64_1_0_0_1_n_n) (by dot_rhs1 dot_S2000x64_S64x64_S2000x64_1_0_0_1_n_n)]
  refine Finset.sum_congr rfl fun k _ => ?_
  rw [truncf_apply, truncf_apply, tile_normRelu]
  refine congrArg (· * v33 (ix2 k q)) ?_
  unfold hiddenRow nrm normRelu
  refine congrArg (fun t => max (v12 (ix2 (0 : Fin 1) k) * (t - v14 (ix2 (0 : Fin 1) k)) * Ideal.rsqrt (v20 (ix2 (0 : Fin 1) k) + Ideal.ofBits .f32 0x3727C5AC#32) + v27 (ix2 (0 : Fin 1) k)) 0) ?_
  rw [tile_dense dot_S2000x64_S64x64_S2000x64_1_0_0_1_n_n rfl rfl rfl rfl
    (by dot_lhs0 dot_S2000x64_S64x64_S2000x64_1_0_0_1_n_n) (by dot_rhs1 dot_S2000x64_S64x64_S2000x64_1_0_0_1_n_n)]
  refine dense_congr v4 k (fun j => ?_) (by rw [shapeCast_self])
  rw [truncf_apply, addf_apply, shapeCast_self]

/-- The store's value at (p, q): the layer's output entry q for the row `v0 p + v1 p`. -/
theorem pay0_apply (v0 v1 : Vec Ideal S2000x64 .f32) (v4 : Vec Ideal S64x64 .f32) (v8 v12 v14 v20 v27 : Vec Ideal S1x64 .f32)
    (v33 : Vec Ideal S64x64 .f32) (v37 v41 v43 v49 v56 : Vec Ideal S1x64 .f32) (p : Fin 2000) (q : Fin 64) :
    k0_pay1 (k0_pay2 v0 v1 v4 v8 v12 v14 v20 v27 v33) v37 v41 v43 v49 v56 (ix2 p q)
      = layerRow (fun j => v0 (ix2 p j) + v1 (ix2 p j)) v4 (row v8) (row v12) (row v27) (row v14) (row v20)
          v33 (row v37) (row v41) (row v56) (row v43) (row v49) q := by
  unfold k0_pay1
  rw [tile_normRelu]
  unfold layerRow nrm normRelu dense
  rw [addf_apply, pay0_2_apply, broadcastTo_1b_ab_apply, shapeCast_self]
  rfl

end Cert.KernelIdeal.Val

end
-- ==== Proof.KRegion0.lean ====
/-
  The first layer's region: what its output array holds when the region ends.

  The region walks 25 row tiles of 2000 rows. At tile t the two row windows hold rows 2000·t … 2000·t + 1999 of the
  features and of the in-edge sums, the parameter windows hold their whole arrays, and the tile program's store is the
  layer's output for those rows; the 25 written tiles cover the output array. So, whatever the buffers hold when the
  region is entered, the output array ends at `Spec.layer` of the entry contents of the region's input arrays.
-/
import proofs.«116199_j10170482557046_1_alg».proof.Proof.Gen.KernelIdeal.Frame
import proofs.«116199_j10170482557046_1_alg».proof.Proof.KBody0
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.LibRowLayers Cert.Spec

variable (V : (c : Dev nD) → (b : Ref sig .tc) → Buf (Elt Ideal) ((c : Thread nD τ).loc b))

theorem hz0 : (![0, 0] : Fin 2 → Nat) = fun _ => 0 := funext fun a => by fin_cases a <;> rfl

/-- The row windows' block index at point t is (t, 0). -/
theorem idxR0 : ∀ t : Fin cfg0.N, win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

/-- The parameter windows' block index is (0, 0) at every point. -/
theorem idxW0 : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- Window 2 holds its whole array at every point. -/
theorem iblk0_2 (c : Dev nD) (t : Fin cfg0.N) : iblk0 V c 2 t = V c main_arg4 := by
  have hf := idxW0 t
  have hz' : (fun a => win0_2.index t a * main_arg4.ty.shape.size a) = fun _ => 0 := funext fun a => by
    match a with
    | ⟨0, _⟩ => show win0_2.index t (0 : Fin 2) * 64 = 0; rw [hf.1]
    | ⟨1, _⟩ => show win0_2.index t (1 : Fin 2) * 64 = 0; rw [hf.2.1]
  exact Memref.read_access_unit_zero (Elt Ideal) main_arg4 hz' (fun a => by rw [congrFun hz' a]; simp) (V c main_arg4)

/-- Window 3 holds its whole array at every point. -/
theorem iblk0_3 (c : Dev nD) (t : Fin cfg0.N) : iblk0 V c 3 t = V c main_v14 := by
  have hf := idxW0 t
  have hz' : (fun a => win0_3.index t a * main_v14.ty.shape.size a) = fun _ => 0 := funext fun a => by
    match a with
    | ⟨0, _⟩ => show win0_3.index t (0 : Fin 2) * 1 = 0; rw [hf.2.2.1]
    | ⟨1, _⟩ => show win0_3.index t (1 : Fin 2) * 64 = 0; rw [hf.2.2.2.1]
  exact Memref.read_access_unit_zero (Elt Ideal) main_v14 hz' (fun a => by rw [congrFun hz' a]; simp) (V c main_v14)

/-- Window 4 holds its whole array at every point. -/
theorem iblk0_4 (c : Dev nD) (t : Fin cfg0.N) : iblk0 V c 4 t = V c main_v15 := by
  have hf := idxW0 t
  have hz' : (fun a => win0_4.index t a * main_v15.ty.shape.size a) = fun _ => 0 := funext fun a => by
    match a with
    | ⟨0, _⟩ => show win0_4.index t (0 : Fin 2) * 1 = 0; rw [hf.2.2.2.2.1]
    | ⟨1, _⟩ => show win0_4.index t (1 : Fin 2) * 64 = 0; rw [hf.2.2.2.2.2.1]
  exact Memref.read_access_unit_zero (Elt Ideal) main_v15 hz' (fun a => by rw [congrFun hz' a]; simp) (V c main_v15)

/-- Window 5 holds its whole array at every point. -/
theorem iblk0_5 (c : Dev nD) (t : Fin cfg0.N) : iblk0 V c 5 t = V c main_v16 := by
  have hf := idxW0 t
  have hz' : (fun a => win0_5.index t a * main_v16.ty.shape.size a) = fun _ => 0 := funext fun a => by
    match a with
    | ⟨0, _⟩ => show win0_5.index t (0 : Fin 2) * 1 = 0; rw [hf.2.2.2.2.2.2.1]
    | ⟨1, _⟩ => show win0_5.index t (1 : Fin 2) * 64 = 0; rw [hf.2.2.2.2.2.2.2.1]
  exact Memref.read_access_unit_zero (Elt Ideal) main_v16 hz' (fun a => by rw [congrFun hz' a]; simp) (V c main_v16)

/-- Window 6 holds its whole array at every point. -/
theorem iblk0_6 (c : Dev nD) (t : Fin cfg0.N) : iblk0 V c 6 t = V c main_v17 := by
  have hf := idxW0 t
  have hz' : (fun a => win0_6.index t a * main_v17.ty.shape.size a) = fun _ => 0 := funext fun a => by
    match a with
    | ⟨0, _⟩ => show win0_6.index t (0 : Fin 2) * 1 = 0; rw [hf.2.2.2.2.2.2.2.2.1]
    | ⟨1, _⟩ => show win0_6.index t (1 : Fin 2) * 64 = 0; rw [hf.2.2.2.2.2.2.2.2.2.1]
  exact Memref.read_access_unit_zero (Elt Ideal) main_v17 hz' (fun a => by rw [congrFun hz' a]; simp) (V c main_v17)

/-- Window 7 holds its whole array at every point. -/
theorem iblk0_7 (c : Dev nD) (t : Fin cfg0.N) : iblk0 V c 7 t = V c main_v18 := by
  have hf := idxW0 t
  have hz' : (fun a => win0_7.index t a * main_v18.ty.shape.size a) = fun _ => 0 := funext fun a => by
    match a with
    | ⟨0, _⟩ => show win0_7.index t (0 : Fin 2) * 1 = 0; rw [hf.2.2.2.2.2.2.2.2.2.2.1]
    | ⟨1, _⟩ => show win0_7.index t (1 : Fin 2) * 64 = 0; rw [hf.2.2.2.2.2.2.2.2.2.2.2.1]
  exact Memref.read_access_unit_zero (Elt Ideal) main_v18 hz' (fun a => by rw [congrFun hz' a]; simp) (V c main_v18)

/-- Window 8 holds its whole array at every point. -/
theorem iblk0_8 (c : Dev nD) (t : Fin cfg0.N) : iblk0 V c 8 t = V c main_arg10 := by
  have hf := idxW0 t
  have hz' : (fun a => win0_8.index t a * main_arg10.ty.shape.size a) = fun _ => 0 := funext fun a => by
    match a with
    | ⟨0, _⟩ => show win0_8.index t (0 : Fin 2) * 64 = 0; rw [hf.2.2.2.2.2.2.2.2.2.2.2.2.1]
    | ⟨1, _⟩ => show win0_8.index t (1 : Fin 2) * 64 = 0; rw [hf.2.2.2.2.2.2.2.2.2.2.2.2.2.1]
  exact Memref.read_access_unit_zero (Elt Ideal) main_arg10 hz' (fun a => by rw [congrFun hz' a]; simp) (V c main_arg10)

/-- Window 9 holds its whole array at every point. -/
theorem iblk0_9 (c : Dev nD) (t : Fin cfg0.N) : iblk0 V c 9 t = V c main_v19 := by
  have hf := idxW0 t
  have hz' : (fun a => win0_9.index t a * main_v19.ty.shape.size a) = fun _ => 0 := funext fun a => by
    match a with
    | ⟨0, _⟩ => show win0_9.index t (0 : Fin 2) * 1 = 0; rw [hf.2.2.2.2.2.2.2.2.2.2.2.2.2.2.1]
    | ⟨1, _⟩ => show win0_9.index t (1 : Fin 2) * 64 = 0; rw [hf.2.2.2.2.2.2.2.2.2.2.2.2.2.2.2.1]
  exact Memref.read_access_unit_zero (Elt Ideal) main_v19 hz' (fun a => by rw [congrFun hz' a]; simp) (V c main_v19)

/-- Window 10 holds its whole array at every point. -/
theorem iblk0_10 (c : Dev nD) (t : Fin cfg0.N) : iblk0 V c 10 t = V c main_v20 := by
  have hf := idxW0 t
  have hz' : (fun a => win0_10.index t a * main_v20.ty.shape.size a) = fun _ => 0 := funext fun a => by
    match a with
    | ⟨0, _⟩ => show win0_10.index t (0 : Fin 2) * 1 = 0; rw [hf.2.2.2.2.2.2.2.2.2.2.2.2.2.2.2.2.1]
    | ⟨1, _⟩ => show win0_10.index t (1 : Fin 2) * 64 = 0; rw [hf.2.2.2.2.2.2.2.2.2.2.2.2.2.2.2.2.2.1]
  exact Memref.read_access_unit_zero (Elt Ideal) main_v20 hz' (fun a => by rw [congrFun hz' a]; simp) (V c main_v20)

/-- Window 11 holds its whole array at every point. -/
theorem iblk0_11 (c : Dev nD) (t : Fin cfg0.N) : iblk0 V c 11 t = V c main_v21 := by
  have hf := idxW0 t
  have hz' : (fun a => win0_11.index t a * main_v21.ty.shape.size a) = fun _ => 0 := funext fun a => by
    match a with
    | ⟨0, _⟩ => show win0_11.index t (0 : Fin 2) * 1 = 0; rw [hf.2.2.2.2.2.2.2.2.2.2.2.2.2.2.2.2.2.2.1]
    | ⟨1, _⟩ => show win0_11.index t (1 : Fin 2) * 64 = 0; rw [hf.2.2.2.2.2.2.2.2.2.2.2.2.2.2.2.2.2.2.2.1]
  exact Memref.read_access_unit_zero (Elt Ideal) main_v21 hz' (fun a => by rw [congrFun hz' a]; simp) (V c main_v21)

/-- Window 12 holds its whole array at every point. -/
theorem iblk0_12 (c : Dev nD) (t : Fin cfg0.N) : iblk0 V c 12 t = V c main_v22 := by
  have hf := idxW0 t
  have hz' : (fun a => win0_12.index t a * main_v22.ty.shape.size a) = fun _ => 0 := funext fun a => by
    match a with
    | ⟨0, _⟩ => show win0_12.index t (0 : Fin 2) * 1 = 0; rw [hf.2.2.2.2.2.2.2.2.2.2.2.2.2.2.2.2.2.2.2.2.1]
    | ⟨1, _⟩ => show win0_12.index t (1 : Fin 2) * 64 = 0; rw [hf.2.2.2.2.2.2.2.2.2.2.2.2.2.2.2.2.2.2.2.2.2.1]
  exact Memref.read_access_unit_zero (Elt Ideal) main_v22 hz' (fun a => by rw [congrFun hz' a]; simp) (V c main_v22)

/-- Window 13 holds its whole array at every point. -/
theorem iblk0_13 (c : Dev nD) (t : Fin cfg0.N) : iblk0 V c 13 t = V c main_v23 := by
  have hf := idxW0 t
  have hz' : (fun a => win0_13.index t a * main_v23.ty.shape.size a) = fun _ => 0 := funext fun a => by
    match a with
    | ⟨0, _⟩ => show win0_13.index t (0 : Fin 2) * 1 = 0; rw [hf.2.2.2.2.2.2.2.2.2.2.2.2.2.2.2.2.2.2.2.2.2.2.1]
    | ⟨1, _⟩ => show win0_13.index t (1 : Fin 2) * 64 = 0; rw [hf.2.2.2.2.2.2.2.2.2.2.2.2.2.2.2.2.2.2.2.2.2.2.2]
  exact Memref.read_access_unit_zero (Elt Ideal) main_v23 hz' (fun a => by rw [congrFun hz' a]; simp) (V c main_v23)

/-- A row window at point t, read at (p, k): row 2000·t + p of its array. -/
theorem iblk0_0_apply (c : Dev nD) (t : Fin cfg0.N) (p : Fin 2000) (k : Fin 64) (r : Fin 50000) (hr : r.val = t.val * 2000 + p.val) :
    iblk0 V c 0 t (ix2 p k) = V c main_arg0 (ix2 r k) := by
  obtain ⟨e0, e1, -⟩ := idxR0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

theorem iblk0_1_apply (c : Dev nD) (t : Fin cfg0.N) (p : Fin 2000) (k : Fin 64) (r : Fin 50000) (hr : r.val = t.val * 2000 + p.val) :
    iblk0 V c 1 t (ix2 p k) = V c main_v13 (ix2 r k) := by
  obtain ⟨-, -, e0, e1, -⟩ := idxR0 t
  show V c main_v13 (((cfg0.win 1).blk t).view.emb (ix2 p k)) = V c main_v13 (ix2 r k)
  refine congrArg (V c main_v13) (funext fun a => Fin.ext ?_)
  match a with
  | ⟨0, _⟩ => show win0_1.index t (0 : Fin 2) * 2000 + 1 * p.val = r.val; omega
  | ⟨1, _⟩ => show win0_1.index t (1 : Fin 2) * 64 + 1 * k.val = k.val; omega

/-- What the output array holds after the region, as a function of the entry contents. -/
def G0 (c : Dev nD) : (⟨2, ![50000, 64]⟩ : Shape).Idx → EReal :=
  layer (V c main_arg0) (V c main_v13) (V c main_arg4) (row (V c main_v14)) (row (V c main_v15)) (row (V c main_v16)) (row (V c main_v17)) (row (V c main_v18))
    (V c main_arg10) (row (V c main_v19)) (row (V c main_v20)) (row (V c main_v21)) (row (V c main_v22)) (row (V c main_v23))

/-- `G0` once the entry contents of the region's input arrays are known: the parameters arrive as vectors recast as
    one-row matrices. -/
theorem G0_of (c : Dev nD) (x0 a : (⟨2, ![50000, 64]⟩ : Shape).Idx → EReal) (w1 w2 : (⟨2, ![64, 64]⟩ : Shape).Idx → EReal)
    (b1 g1 be1 mu1 var1 b2 g2 be2 mu2 var2 : (⟨1, ![64]⟩ : Shape).Idx → EReal)
    (e0 : V c main_arg0 = x0) (e1 : V c main_v13 = a) (e2 : V c main_arg4 = w1) (e8 : V c main_arg10 = w2)
    (e3 : V c main_v14 = shapeCast S1x64 b1 shapeCasts_S64_S1x64)
    (e4 : V c main_v15 = shapeCast S1x64 g1 shapeCasts_S64_S1x64)
    (e5 : V c main_v16 = shapeCast S1x64 be1 shapeCasts_S64_S1x64)
    (e6 : V c main_v17 = shapeCast S1x64 mu1 shapeCasts_S64_S1x64)
    (e7 : V c main_v18 = shapeCast S1x64 var1 shapeCasts_S64_S1x64)
    (e9 : V c main_v19 = shapeCast S1x64 b2 shapeCasts_S64_S1x64)
    (e10 : V c main_v20 = shapeCast S1x64 g2 shapeCasts_S64_S1x64)
    (e11 : V c main_v21 = shapeCast S1x64 be2 shapeCasts_S64_S1x64)
    (e12 : V c main_v22 = shapeCast S1x64 mu2 shapeCasts_S64_S1x64)
    (e13 : V c main_v23 = shapeCast S1x64 var2 shapeCasts_S64_S1x64) :
    G0 V c = layer x0 a w1 (fun j => b1 (ix1 j)) (fun j => g1 (ix1 j)) (fun j => be1 (ix1 j)) (fun j => mu1 (ix1 j)) (fun j => var1 (ix1 j))
      w2 (fun j => b2 (ix1 j)) (fun j => g2 (ix1 j)) (fun j => be2 (ix1 j)) (fun j => mu2 (ix1 j)) (fun j => var2 (ix1 j)) := by
  unfold G0
  rw [e0, e1, e2, e8, e3, e4, e5, e6, e7, e9, e10, e11, e12, e13]
  have hrow : ∀ x : (⟨1, ![64]⟩ : Shape).Idx → EReal, row (shapeCast S1x64 x shapeCasts_S64_S1x64) = fun j => x (ix1 j) :=
    fun x => funext fun j => shapeCast_a_1a_apply x shapeCasts_S64_S1x64 0 j
  simp only [hrow]

/-- What point t writes back is block t of `G0`. -/
theorem flushed0_eq (c : Dev nD) (t : Fin cfg0.N) :
    (dat0 V c).flushed 14 t = ((cfg0.win 14).blk t).view.read (Elt Ideal) (G0 V c) := by
  show (cfg0.win 14).cut (grid0.coords t) ((dat0 V c).after 14 t) = _
  rw [after0_14]
  unfold out0_14
  rw [View.canon_unit_zero hz0]
  simp only [View.ld_unit_zero (S := S2000x64) hz0, View.ld_unit_zero (S := S64x64) hz0, View.ld_unit_zero (S := S1x64) hz0]
  rw [iblk0_2, iblk0_3, iblk0_4, iblk0_5, iblk0_6, iblk0_7, iblk0_8, iblk0_9, iblk0_10, iblk0_11, iblk0_12, iblk0_13]
  funext j
  obtain ⟨p, q, rfl⟩ : ∃ (p : Fin 2000) (q : Fin 64), j = ix2 p q := ⟨j 0, j 1, eq_ix2 j⟩
  have hN : t.val < 25 := by have := t.isLt; have e : cfg0.N = 25 := N_0; omega
  have hr : t.val * 2000 + p.val < 50000 := by have := p.isLt; omega
  obtain ⟨-, -, -, -, e0, e1⟩ := idxR0 t
  have hemb : ((cfg0.win 14).blk t).view.emb (ix2 p q) = ix2 (⟨t.val * 2000 + p.val, hr⟩ : Fin 50000) q := by
    funext a; apply Fin.ext
    match a with
    | ⟨0, _⟩ => show win0_14.index t (0 : Fin 2) * 2000 + 1 * p.val = t.val * 2000 + p.val; omega
    | ⟨1, _⟩ => show win0_14.index t (1 : Fin 2) * 64 + 1 * q.val = q.val; omega
  show _ = G0 V c (((cfg0.win 14).blk t).view.emb (ix2 p q))
  rw [hemb]
  unfold G0
  rw [layer_apply]
  refine (pay0_apply (iblk0 V c 0 t) (iblk0 V c 1 t) (V c main_arg4) (V c main_v14) (V c main_v15) (V c main_v17) (V c main_v18) (V c main_v16) (V c main_arg10) (V c main_v19) (V c main_v20) (V c main_v22) (V c main_v23) (V c main_v21) p q).trans ?_
  exact layerRow_congr _ _ _ _ _ _ _ _ _ _ _ _ _ (fun k => by
    rw [iblk0_0_apply V c t p k ⟨t.val * 2000 + p.val, hr⟩ rfl, iblk0_1_apply V c t p k ⟨t.val * 2000 + p.val, hr⟩ rfl])

/-- The 25 tiles cover the output array, so it ends at `G0`. -/
theorem final0 (c : Dev nD) : (dat0 V c).arrAt 14 cfg0.N = G0 V c :=
  (dat0 V c).arrAt_eq_of_cover 14 (G0 V c) (fun t _ => flushed0_eq V c t) fun i => by
    have hi0 : (i 0).val < 50000 := (i 0).isLt
    have hi1 : (i 1).val < 64 := (i 1).isLt
    have hN : cfg0.N = 25 := N_0
    have hlt : (i 0).val / 2000 < cfg0.N := by rw [hN]; omega
    refine ⟨⟨(i 0).val / 2000, hlt⟩, flush0_14 _, ?_⟩
    obtain ⟨-, -, -, -, e0, e1⟩ := idxR0 ⟨(i 0).val / 2000, hlt⟩
    show i ∈ ((View.whole main_v24).slice (win0_14.rect ⟨(i 0).val / 2000, hlt⟩)).set
    rw [View.set_slice_whole, Rect.mem_set_unit]
    intro a
    match a with
    | ⟨0, _⟩ =>
      show win0_14.index _ (0 : Fin 2) * 2000 ≤ (i 0).val ∧ (i 0).val < win0_14.index _ (0 : Fin 2) * 2000 + 2000
      rw [e0]; show (i 0).val / 2000 * 2000 ≤ (i 0).val ∧ (i 0).val < (i 0).val / 2000 * 2000 + 2000; omega
    | ⟨1, _⟩ =>
      show win0_14.index _ (1 : Fin 2) * 64 ≤ (i 1).val ∧ (i 1).val < win0_14.index _ (1 : Fin 2) * 64 + 64
      rw [e1]; omega

end Cert.KernelIdeal.Val

end
-- ==== Proof.KBody1.lean ====
/-
  What the second layer's tile program stores, read at an entry.

  The same layer as the first, with the hidden rows computed as one value and the second weight matrix passed through
  a change of number format (the identity on the extended reals): at (p, q) the store writes the layer's output entry q
  for the row `h p + a p`.
-/
import proofs.«116199_j10170482557046_1_alg».proof.Proof.Gen.KernelIdeal.Skeleton
import proofs.«116199_j10170482557046_1_alg».proof.Proof.Spec
import proofs.«116199_j10170482557046_1_alg».proof.Proof.LibNormRows
import proofs.«116199_j10170482557046_1_alg».proof.Proof.KBody0

noncomputable section

namespace Cert.KernelIdeal.Val

open Cert.KernelIdeal Cert.KernelIdeal.Gen Idealize.ShloMosaic Idealize.ShloMosaic.ValueIdx
open Cert.LibRowLayers Cert.LibNormRows Cert.Spec

/-- The hidden row of tile row p at k. -/
theorem pay1_3_apply (v0 v2 : Vec Ideal S2000x64 .f32) (v5 : Vec Ideal S64x64 .f32) (v9 v13 v15 v21 v28 : Vec Ideal S1x64 .f32)
    (p : Fin 2000) (k : Fin 64) :
    k1_pay3 v0 v2 v5 v9 v13 v15 v21 v28 (ix2 p k)
      = hiddenRow (fun j => v0 (ix2 p j) + v2 (ix2 p j)) v5 (row v9) (row v13) (row v28) (row v15) (row v21) k := by
  unfold k1_pay3
  rw [truncf_apply, tile_normRelu]
  unfold hiddenRow nrm normRelu
  refine congrArg (fun t => max (v13 (ix2 (0 : Fin 1) k) * (t - v15 (ix2 (0 : Fin 1) k)) * Ideal.rsqrt (v21 (ix2 (0 : Fin 1) k) + Ideal.ofBits .f32 0x3727C5AC#32) + v28 (ix2 (0 : Fin 1) k)) 0) ?_
  rw [tile_dense dot_S2000x64_S64x64_S2000x64_1_0_0_1_n_n rfl rfl rfl rfl
    (by dot_lhs0 dot_S2000x64_S64x64_S2000x64_1_0_0_1_n_n) (by dot_rhs1 dot_S2000x64_S64x64_S2000x64_1_0_0_1_n_n)]
  refine dense_congr v5 k (fun j => ?_) (by rw [shapeCast_self])
  rw [truncf_apply, addf_apply, shapeCast_self, shapeCast_self]

/-- The store's value at (p, q): the layer's output entry q for the row `v0 p + v2 p`. -/
theorem pay1_apply (v0 v2 : Vec Ideal S2000x64 .f32) (v5 : Vec Ideal S64x64 .f32) (v9 v13 v15 v21 v28 : Vec Ideal S1x64 .f32)
    (v34 : Vec Ideal S64x64 .f32) (v38 v42 v44 v50 v57 : Vec Ideal S1x64 .f32) (p : Fin 2000) (q : Fin 64) :
    k1_pay1 (k1_pay2 v34) (k1_pay3 v0 v2 v5 v9 v13 v15 v21 v28) (constant (F := Ideal) S2000x64 .f32 0x00000000#32) v38 v42 v44 v50 v57 (ix2 p q)
      = layerRow (fun j => v0 (ix2 p j) + v2 (ix2 p j)) v5 (row v9) (row v13) (row v28) (row v15) (row v21)
          v34 (row v38) (row v42) (row v57) (row v44) (row v50) q := by
  unfold k1_pay1
  rw [tile_normRelu]
  unfold layerRow nrm normRelu
  refine congrArg (fun t => max (v42 (ix2 (0 : Fin 1) q) * (t - v44 (ix2 (0 : Fin 1) q)) * Ideal.rsqrt (v50 (ix2 (0 : Fin 1) q) + Ideal.ofBits .f32 0x3727C5AC#32) + v57 (ix2 (0 : Fin 1) q)) 0) ?_
  rw [tile_dense dot_S2000x64_S64x64_S2000x64_1_0_0_1_n_n rfl rfl rfl rfl
    (by dot_lhs0 dot_S2000x64_S64x64_S2000x64_1_0_0_1_n_n) (by dot_rhs1 dot_S2000x64_S64x64_S2000x64_1_0_0_1_n_n)]
  unfold dense
  rw [shapeCast_self]
  refine congrArg (· + v38 (ix2 (0 : Fin 1) q)) (Finset.sum_congr rfl fun k _ => ?_)
  exact congrArg (· * v34 (ix2 k q)) (pay1_3_apply v0 v2 v5 v9 v13 v15 v21 v28 p k)

end Cert.KernelIdeal.Val

end
-- ==== Proof.KRegion1.lean ====
/-
  The second layer's region: what its output array holds when the region ends.

  The region walks 25 row tiles of 2000 rows. At tile t the two row windows hold rows 2000·t … 2000·t + 1999 of the
  features and of the in-edge sums, the parameter windows hold their whole arrays, and the tile program's store is the
  layer's output for those rows; the 25 written tiles cover the output array. So, whatever the buffers hold when the
  region is entered, the output array ends at `Spec.layer` of the entry contents of the region's input arrays.
-/
import proofs.«116199_j10170482557046_1_alg».proof.Proof.Gen.KernelIdeal.Frame
import proofs.«116199_j10170482557046_1_alg».proof.Proof.KBody1
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.LibRowLayers Cert.Spec

variable (V : (c : Dev nD) → (b : Ref sig .tc) → Buf (Elt Ideal) ((c : Thread nD τ).loc b))

theorem hz1 : (![0, 0] : Fin 2 → Nat) = fun _ => 0 := funext fun a => by fin_cases a <;> rfl

/-- The row windows' block index at point t is (t, 0). -/
theorem idxR1 : ∀ t : Fin cfg1.N, win1_0.index t (0 : Fin 2) = t.val ∧ win1_0.index t (1 : Fin 2) = 0
    ∧ win1_1.index t (0 : Fin 2) = t.val ∧ win1_1.index t (1 : Fin 2) = 0
    ∧ win1_14.index t (0 : Fin 2) = t.val ∧ win1_14.index t (1 : Fin 2) = 0 :=
  (by decide +kernel : ∀ t : Fin grid1.N, _)

/-- The parameter windows' block index is (0, 0) at every point. -/
theorem idxW1 : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0 :=
  (by decide +kernel : ∀ t : Fin grid1.N, _)

/-- Window 2 holds its whole array at every point. -/
theorem iblk1_2 (c : Dev nD) (t : Fin cfg1.N) : iblk1 V c 2 t = V c main_arg16 := by
  have hf := idxW1 t
  have hz' : (fun a => win1_2.index t a * main_arg16.ty.shape.size a) = fun _ => 0 := funext fun a => by
    match a with
    | ⟨0, _⟩ => show win1_2.index t (0 : Fin 2) * 64 = 0; rw [hf.1]
    | ⟨1, _⟩ => show win1_2.index t (1 : Fin 2) * 64 = 0; rw [hf.2.1]
  exact Memref.read_access_unit_zero (Elt Ideal) main_arg16 hz' (fun a => by rw [congrFun hz' a]; simp) (V c main_arg16)

/-- Window 3 holds its whole array at every point. -/
theorem iblk1_3 (c : Dev nD) (t : Fin cfg1.N) : iblk1 V c 3 t = V c main_v35 := by
  have hf := idxW1 t
  have hz' : (fun a => win1_3.index t a * main_v35.ty.shape.size a) = fun _ => 0 := funext fun a => by
    match a with
    | ⟨0, _⟩ => show win1_3.index t (0 : Fin 2) * 1 = 0; rw [hf.2.2.1]
    | ⟨1, _⟩ => show win1_3.index t (1 : Fin 2) * 64 = 0; rw [hf.2.2.2.1]
  exact Memref.read_access_unit_zero (Elt Ideal) main_v35 hz' (fun a => by rw [congrFun hz' a]; simp) (V c main_v35)

/-- Window 4 holds its whole array at every point. -/
theorem iblk1_4 (c : Dev nD) (t : Fin cfg1.N) : iblk1 V c 4 t = V c main_v36 := by
  have hf := idxW1 t
  have hz' : (fun a => win1_4.index t a * main_v36.ty.shape.size a) = fun _ => 0 := funext fun a => by
    match a with
    | ⟨0, _⟩ => show win1_4.index t (0 : Fin 2) * 1 = 0; rw [hf.2.2.2.2.1]
    | ⟨1, _⟩ => show win1_4.index t (1 : Fin 2) * 64 = 0; rw [hf.2.2.2.2.2.1]
  exact Memref.read_access_unit_zero (Elt Ideal) main_v36 hz' (fun a => by rw [congrFun hz' a]; simp) (V c main_v36)

/-- Window 5 holds its whole array at every point. -/
theorem iblk1_5 (c : Dev nD) (t : Fin cfg1.N) : iblk1 V c 5 t = V c main_v37 := by
  have hf := idxW1 t
  have hz' : (fun a => win1_5.index t a * main_v37.ty.shape.size a) = fun _ => 0 := funext fun a => by
    match a with
    | ⟨0, _⟩ => show win1_5.index t (0 : Fin 2) * 1 = 0; rw [hf.2.2.2.2.2.2.1]
    | ⟨1, _⟩ => show win1_5.index t (1 : Fin 2) * 64 = 0; rw [hf.2.2.2.2.2.2.2.1]
  exact Memref.read_access_unit_zero (Elt Ideal) main_v37 hz' (fun a => by rw [congrFun hz' a]; simp) (V c main_v37)

/-- Window 6 holds its whole array at every point. -/
theorem iblk1_6 (c : Dev nD) (t : Fin cfg1.N) : iblk1 V c 6 t = V c main_v38 := by
  have hf := idxW1 t
  have hz' : (fun a => win1_6.index t a * main_v38.ty.shape.size a) = fun _ => 0 := funext fun a => by
    match a with
    | ⟨0, _⟩ => show win1_6.index t (0 : Fin 2) * 1 = 0; rw [hf.2.2.2.2.2.2.2.2.1]
    | ⟨1, _⟩ => show win1_6.index t (1 : Fin 2) * 64 = 0; rw [hf.2.2.2.2.2.2.2.2.2.1]
  exact Memref.read_access_unit_zero (Elt Ideal) main_v38 hz' (fun a => by rw [congrFun hz' a]; simp) (V c main_v38)

/-- Window 7 holds its whole array at every point. -/
theorem iblk1_7 (c : Dev nD) (t : Fin cfg1.N) : iblk1 V c 7 t = V c main_v39 := by
  have hf := idxW1 t
  have hz' : (fun a => win1_7.index t a * main_v39.ty.shape.size a) = fun _ => 0 := funext fun a => by
    match a with
    | ⟨0, _⟩ => show win1_7.index t (0 : Fin 2) * 1 = 0; rw [hf.2.2.2.2.2.2.2.2.2.2.1]
    | ⟨1, _⟩ => show win1_7.index t (1 : Fin 2) * 64 = 0; rw [hf.2.2.2.2.2.2.2.2.2.2.2.1]
  exact Memref.read_access_unit_zero (Elt Ideal) main_v39 hz' (fun a => by rw [congrFun hz' a]; simp) (V c main_v39)

/-- Window 8 holds its whole array at every point. -/
theorem iblk1_8 (c : Dev nD) (t : Fin cfg1.N) : iblk1 V c 8 t = V c main_arg22 := by
  have hf := idxW1 t
  have hz' : (fun a => win1_8.index t a * main_arg22.ty.shape.size a) = fun _ => 0 := funext fun a => by
    match a with
    | ⟨0, _⟩ => show win1_8.index t (0 : Fin 2) * 64 = 0; rw [hf.2.2.2.2.2.2.2.2.2.2.2.2.1]
    | ⟨1, _⟩ => show win1_8.index t (1 : Fin 2) * 64 = 0; rw [hf.2.2.2.2.2.2.2.2.2.2.2.2.2.1]
  exact Memref.read_access_unit_zero (Elt Ideal) main_arg22 hz' (fun a => by rw [congrFun hz' a]; simp) (V c main_arg22)

/-- Window 9 holds its whole array at every point. -/
theorem iblk1_9 (c : Dev nD) (t : Fin cfg1.N) : iblk1 V c 9 t = V c main_v40 := by
  have hf := idxW1 t
  have hz' : (fun a => win1_9.index t a * main_v40.ty.shape.size a) = fun _ => 0 := funext fun a => by
    match a with
    | ⟨0, _⟩ => show win1_9.index t (0 : Fin 2) * 1 = 0; rw [hf.2.2.2.2.2.2.2.2.2.2.2.2.2.2.1]
    | ⟨1, _⟩ => show win1_9.index t (1 : Fin 2) * 64 = 0; rw [hf.2.2.2.2.2.2.2.2.2.2.2.2.2.2.2.1]
  exact Memref.read_access_unit_zero (Elt Ideal) main_v40 hz' (fun a => by rw [congrFun hz' a]; simp) (V c main_v40)

/-- Window 10 holds its whole array at every point. -/
theorem iblk1_10 (c : Dev nD) (t : Fin cfg1.N) : iblk1 V c 10 t = V c main_v41 := by
  have hf := idxW1 t
  have hz' : (fun a => win1_10.index t a * main_v41.ty.shape.size a) = fun _ => 0 := funext fun a => by
    match a with
    | ⟨0, _⟩ => show win1_10.index t (0 : Fin 2) * 1 = 0; rw [hf.2.2.2.2.2.2.2.2.2.2.2.2.2.2.2.2.1]
    | ⟨1, _⟩ => show win1_10.index t (1 : Fin 2) * 64 = 0; rw [hf.2.2.2.2.2.2.2.2.2.2.2.2.2.2.2.2.2.1]
  exact Memref.read_access_unit_zero (Elt Ideal) main_v41 hz' (fun a => by rw [congrFun hz' a]; simp) (V c main_v41)

/-- Window 11 holds its whole array at every point. -/
theorem iblk1_11 (c : Dev nD) (t : Fin cfg1.N) : iblk1 V c 11 t = V c main_v42 := by
  have hf := idxW1 t
  have hz' : (fun a => win1_11.index t a * main_v42.ty.shape.size a) = fun _ => 0 := funext fun a => by
    match a with
    | ⟨0, _⟩ => show win1_11.index t (0 : Fin 2) * 1 = 0; rw [hf.2.2.2.2.2.2.2.2.2.2.2.2.2.2.2.2.2.2.1]
    | ⟨1, _⟩ => show win1_11.index t (1 : Fin 2) * 64 = 0; rw [hf.2.2.2.2.2.2.2.2.2.2.2.2.2.2.2.2.2.2.2.1]
  exact Memref.read_access_unit_zero (Elt Ideal) main_v42 hz' (fun a => by rw [congrFun hz' a]; simp) (V c main_v42)

/-- Window 12 holds its whole array at every point. -/
theorem iblk1_12 (c : Dev nD) (t : Fin cfg1.N) : iblk1 V c 12 t = V c main_v43 := by
  have hf := idxW1 t
  have hz' : (fun a => win1_12.index t a * main_v43.ty.shape.size a) = fun _ => 0 := funext fun a => by
    match a with
    | ⟨0, _⟩ => show win1_12.index t (0 : Fin 2) * 1 = 0; rw [hf.2.2.2.2.2.2.2.2.2.2.2.2.2.2.2.2.2.2.2.2.1]
    | ⟨1, _⟩ => show win1_12.index t (1 : Fin 2) * 64 = 0; rw [hf.2.2.2.2.2.2.2.2.2.2.2.2.2.2.2.2.2.2.2.2.2.1]
  exact Memref.read_access_unit_zero (Elt Ideal) main_v43 hz' (fun a => by rw [congrFun hz' a]; simp) (V c main_v43)

/-- Window 13 holds its whole array at every point. -/
theorem iblk1_13 (c : Dev nD) (t : Fin cfg1.N) : iblk1 V c 13 t = V c main_v44 := by
  have hf := idxW1 t
  have hz' : (fun a => win1_13.index t a * main_v44.ty.shape.size a) = fun _ => 0 := funext fun a => by
    match a with
    | ⟨0, _⟩ => show win1_13.index t (0 : Fin 2) * 1 = 0; rw [hf.2.2.2.2.2.2.2.2.2.2.2.2.2.2.2.2.2.2.2.2.2.2.1]
    | ⟨1, _⟩ => show win1_13.index t (1 : Fin 2) * 64 = 0; rw [hf.2.2.2.2.2.2.2.2.2.2.2.2.2.2.2.2.2.2.2.2.2.2.2]
  exact Memref.read_access_unit_zero (Elt Ideal) main_v44 hz' (fun a => by rw [congrFun hz' a]; simp) (V c main_v44)

/-- A row window at point t, read at (p, k): row 2000·t + p of its array. -/
theorem iblk1_0_apply (c : Dev nD) (t : Fin cfg1.N) (p : Fin 2000) (k : Fin 64) (r : Fin 50000) (hr : r.val = t.val * 2000 + p.val) :
    iblk1 V c 0 t (ix2 p k) = V c main_v24 (ix2 r k) := by
  obtain ⟨e0, e1, -⟩ := idxR1 t
  show V c main_v24 (((cfg1.win 0).blk t).view.emb (ix2 p k)) = V c main_v24 (ix2 r k)
  refine congrArg (V c main_v24) (funext fun a => Fin.ext ?_)
  match a with
  | ⟨0, _⟩ => show win1_0.index t (0 : Fin 2) * 2000 + 1 * p.val = r.val; omega
  | ⟨1, _⟩ => show win1_0.index t (1 : Fin 2) * 64 + 1 * k.val = k.val; omega

theorem iblk1_1_apply (c : Dev nD) (t : Fin cfg1.N) (p : Fin 2000) (k : Fin 64) (r : Fin 50000) (hr : r.val = t.val * 2000 + p.val) :
    iblk1 V c 1 t (ix2 p k) = V c main_v34 (ix2 r k) := by
  obtain ⟨-, -, e0, e1, -⟩ := idxR1 t
  show V c main_v34 (((cfg1.win 1).blk t).view.emb (ix2 p k)) = V c main_v34 (ix2 r k)
  refine congrArg (V c main_v34) (funext fun a => Fin.ext ?_)
  match a with
  | ⟨0, _⟩ => show win1_1.index t (0 : Fin 2) * 2000 + 1 * p.val = r.val; omega
  | ⟨1, _⟩ => show win1_1.index t (1 : Fin 2) * 64 + 1 * k.val = k.val; omega

/-- What the output array holds after the region, as a function of the entry contents. -/
def G1 (c : Dev nD) : (⟨2, ![50000, 64]⟩ : Shape).Idx → EReal :=
  layer (V c main_v24) (V c main_v34) (V c main_arg16) (row (V c main_v35)) (row (V c main_v36)) (row (V c main_v37)) (row (V c main_v38)) (row (V c main_v39))
    (V c main_arg22) (row (V c main_v40)) (row (V c main_v41)) (row (V c main_v42)) (row (V c main_v43)) (row (V c main_v44))

/-- `G1` once the entry contents of the region's input arrays are known: the parameters arrive as vectors recast as
    one-row matrices. -/
theorem G1_of (c : Dev nD) (x0 a : (⟨2, ![50000, 64]⟩ : Shape).Idx → EReal) (w1 w2 : (⟨2, ![64, 64]⟩ : Shape).Idx → EReal)
    (b1 g1 be1 mu1 var1 b2 g2 be2 mu2 var2 : (⟨1, ![64]⟩ : Shape).Idx → EReal)
    (e0 : V c main_v24 = x0) (e1 : V c main_v34 = a) (e2 : V c main_arg16 = w1) (e8 : V c main_arg22 = w2)
    (e3 : V c main_v35 = shapeCast S1x64 b1 shapeCasts_S64_S1x64)
    (e4 : V c main_v36 = shapeCast S1x64 g1 shapeCasts_S64_S1x64)
    (e5 : V c main_v37 = shapeCast S1x64 be1 shapeCasts_S64_S1x64)
    (e6 : V c main_v38 = shapeCast S1x64 mu1 shapeCasts_S64_S1x64)
    (e7 : V c main_v39 = shapeCast S1x64 var1 shapeCasts_S64_S1x64)
    (e9 : V c main_v40 = shapeCast S1x64 b2 shapeCasts_S64_S1x64)
    (e10 : V c main_v41 = shapeCast S1x64 g2 shapeCasts_S64_S1x64)
    (e11 : V c main_v42 = shapeCast S1x64 be2 shapeCasts_S64_S1x64)
    (e12 : V c main_v43 = shapeCast S1x64 mu2 shapeCasts_S64_S1x64)
    (e13 : V c main_v44 = shapeCast S1x64 var2 shapeCasts_S64_S1x64) :
    G1 V c = layer x0 a w1 (fun j => b1 (ix1 j)) (fun j => g1 (ix1 j)) (fun j => be1 (ix1 j)) (fun j => mu1 (ix1 j)) (fun j => var1 (ix1 j))
      w2 (fun j => b2 (ix1 j)) (fun j => g2 (ix1 j)) (fun j => be2 (ix1 j)) (fun j => mu2 (ix1 j)) (fun j => var2 (ix1 j)) := by
  unfold G1
  rw [e0, e1, e2, e8, e3, e4, e5, e6, e7, e9, e10, e11, e12, e13]
  have hrow : ∀ x : (⟨1, ![64]⟩ : Shape).Idx → EReal, row (shapeCast S1x64 x shapeCasts_S64_S1x64) = fun j => x (ix1 j) :=
    fun x => funext fun j => shapeCast_a_1a_apply x shapeCasts_S64_S1x64 0 j
  simp only [hrow]

set_option maxHeartbeats 1600000 in
/-- What point t writes back is block t of `G1`. -/
theorem flushed1_eq (c : Dev nD) (t : Fin cfg1.N) :
    (dat1 V c).flushed 14 t = ((cfg1.win 14).blk t).view.read (Elt Ideal) (G1 V c) := by
  show (cfg1.win 14).cut (grid1.coords t) ((dat1 V c).after 14 t) = _
  rw [after1_14]
  unfold out1_14
  rw [View.canon_unit_zero hz1]
  simp only [View.ld_unit_zero (S := S2000x64) hz1, View.ld_unit_zero (S := S64x64) hz1, View.ld_unit_zero (S := S1x64) hz1]
  rw [iblk1_2, iblk1_3, iblk1_4, iblk1_5, iblk1_6, iblk1_7, iblk1_8, iblk1_9, iblk1_10, iblk1_11, iblk1_12, iblk1_13]
  funext j
  obtain ⟨p, q, rfl⟩ : ∃ (p : Fin 2000) (q : Fin 64), j = ix2 p q := ⟨j 0, j 1, eq_ix2 j⟩
  have hN : t.val < 25 := by have := t.isLt; have e : cfg1.N = 25 := N_1; omega
  have hr : t.val * 2000 + p.val < 50000 := by have := p.isLt; omega
  obtain ⟨-, -, -, -, e0, e1⟩ := idxR1 t
  have hemb : ((cfg1.win 14).blk t).view.emb (ix2 p q) = ix2 (⟨t.val * 2000 + p.val, hr⟩ : Fin 50000) q := by
    funext a; apply Fin.ext
    match a with
    | ⟨0, _⟩ => show win1_14.index t (0 : Fin 2) * 2000 + 1 * p.val = t.val * 2000 + p.val; omega
    | ⟨1, _⟩ => show win1_14.index t (1 : Fin 2) * 64 + 1 * q.val = q.val; omega
  show _ = G1 V c (((cfg1.win 14).blk t).view.emb (ix2 p q))
  rw [hemb]
  unfold G1
  rw [layer_apply]
  refine (pay1_apply (iblk1 V c 0 t) (iblk1 V c 1 t) (V c main_arg16) (V c main_v35) (V c main_v36) (V c main_v38) (V c main_v39) (V c main_v37) (V c main_arg22) (V c main_v40) (V c main_v41) (V c main_v43) (V c main_v44) (V c main_v42) p q).trans ?_
  exact layerRow_congr _ _ _ _ _ _ _ _ _ _ _ _ _ (fun k => by
    rw [iblk1_0_apply V c t p k ⟨t.val * 2000 + p.val, hr⟩ rfl, iblk1_1_apply V c t p k ⟨t.val * 2000 + p.val, hr⟩ rfl])

/-- The 25 tiles cover the output array, so it ends at `G1`. -/
theorem final1 (c : Dev nD) : (dat1 V c).arrAt 14 cfg1.N = G1 V c :=
  (dat1 V c).arrAt_eq_of_cover 14 (G1 V c) (fun t _ => flushed1_eq V c t) fun i => by
    have hi0 : (i 0).val < 50000 := (i 0).isLt
    have hi1 : (i 1).val < 64 := (i 1).isLt
    have hN : cfg1.N = 25 := N_1
    have hlt : (i 0).val / 2000 < cfg1.N := by rw [hN]; omega
    refine ⟨⟨(i 0).val / 2000, hlt⟩, flush1_14 _, ?_⟩
    obtain ⟨-, -, -, -, e0, e1⟩ := idxR1 ⟨(i 0).val / 2000, hlt⟩
    show i ∈ ((View.whole main_v45).slice (win1_14.rect ⟨(i 0).val / 2000, hlt⟩)).set
    rw [View.set_slice_whole, Rect.mem_set_unit]
    intro a
    match a with
    | ⟨0, _⟩ =>
      show win1_14.index _ (0 : Fin 2) * 2000 ≤ (i 0).val ∧ (i 0).val < win1_14.index _ (0 : Fin 2) * 2000 + 2000
      rw [e0]; show (i 0).val / 2000 * 2000 ≤ (i 0).val ∧ (i 0).val < (i 0).val / 2000 * 2000 + 2000; omega
    | ⟨1, _⟩ =>
      show win1_14.index _ (1 : Fin 2) * 64 ≤ (i 1).val ∧ (i 1).val < win1_14.index _ (1 : Fin 2) * 64 + 64
      rw [e1]; omega

end Cert.KernelIdeal.Val

end
-- ==== Proof.KBody2.lean ====
/-
  What the read-out's tile program stores, read at an entry.

  One tile holds all 512 graphs. Each of the three heads is a product of the pooled rows with a weight matrix plus a
  one-row bias; the store writes, at (a, q), head 0 scaled by ω (a, 0), plus head 1 scaled by ω (a, 1), plus head 2
  scaled by ω (a, 2), where each column of ω is cut out and stretched along the ten output columns.
-/
import proofs.«116199_j10170482557046_1_alg».proof.Proof.Gen.KernelIdeal.Skeleton
import proofs.«116199_j10170482557046_1_alg».proof.Proof.Spec
import proofs.«116199_j10170482557046_1_alg».proof.Proof.LibNormRows
import proofs.«116199_j10170482557046_1_alg».proof.Proof.KBody0

noncomputable section

namespace Cert.KernelIdeal.Val

open Cert.KernelIdeal Cert.KernelIdeal.Gen Idealize.ShloMosaic Idealize.ShloMosaic.ValueIdx
open Cert.LibRowLayers Cert.LibNormRows Cert.Spec

/-- One head at (a, q): the dense layer applied to pooled row a. -/
theorem head_apply (p : Vec Ideal S512x64 .f32) (w : Vec Ideal S64x10 .f32) (c : Vec Ideal S1x10 .f32) (a : Fin 512) (q : Fin 10) :
    addf (matmul (F := Ideal) dot_S512x64_S64x10_S512x10_1_0_0_1_n_n none (truncf .bf16 (shapeCast S512x64 p shapeCasts_S512x64_S512x64) bitsLt_bf16_f32)
        (truncf .bf16 w bitsLt_bf16_f32) (constant (F := Ideal) S512x10 .f32 0x00000000#32))
      (broadcastTo S512x10 (shapeCast S1x10 c shapeCasts_S1x10_S1x10) broadcasts_S1x10_S512x10) (ix2 a q)
      = dense (fun k => p (ix2 a k)) w (row c) q := by
  rw [tile_dense dot_S512x64_S64x10_S512x10_1_0_0_1_n_n rfl rfl rfl rfl
    (by dot_lhs0 dot_S512x64_S64x10_S512x10_1_0_0_1_n_n) (by dot_rhs1 dot_S512x64_S64x10_S512x10_1_0_0_1_n_n)]
  unfold dense
  rw [shapeCast_self, shapeCast_self]
  rfl

/-- Column k of the weights, stretched along the output columns, at (a, q). -/
theorem col_apply (om : Vec Ideal S512x3 .f32) (k : ℕ) (hk : k < 3) (h : S512x3.Slices ![0, k] S512x1) (a : Fin 512) (q : Fin 10) :
    broadcastTo S512x10 (extractStridedSlice S512x1 ![0, k] om h) broadcasts_S512x1_S512x10 (ix2 a q) = om (ix2 a (⟨k, hk⟩ : Fin 3)) := by
  rw [broadcastTo_a1_ab_apply, slice2_axis1_apply k om h a 0 ⟨k, hk⟩ (by simp)]

/-- The store's value at (a, q). -/
theorem pay2_apply (p0 p1 p2 : Vec Ideal S512x64 .f32) (w0 : Vec Ideal S64x10 .f32) (c0 : Vec Ideal S1x10 .f32)
    (w1 : Vec Ideal S64x10 .f32) (c1 : Vec Ideal S1x10 .f32) (w2 : Vec Ideal S64x10 .f32) (c2 : Vec Ideal S1x10 .f32)
    (om : Vec Ideal S512x3 .f32) (a : Fin 512) (q : Fin 10) :
    k2_pay1 (k2_pay2 p1 w1 c1) (k2_pay3 p2 w2 c2) om (k2_pay4 p0 w0 c0 om) (k2_pay5 om) (ix2 a q)
      = dense (fun k => p0 (ix2 a k)) w0 (row c0) q * om (ix2 a 0) + dense (fun k => p1 (ix2 a k)) w1 (row c1) q * om (ix2 a 1)
        + dense (fun k => p2 (ix2 a k)) w2 (row c2) q * om (ix2 a 2) := by
  unfold k2_pay1 k2_pay2 k2_pay3 k2_pay4 k2_pay5
  rw [addf_apply, addf_apply, mulf_apply, mulf_apply, mulf_apply, head_apply, head_apply, head_apply,
    col_apply om 0 (by decide) slices_S512x3_o0_0_S512x1, col_apply om 1 (by decide) slices_S512x3_o0_1_S512x1,
    col_apply om 2 (by decide) slices_S512x3_o0_2_S512x1]
  rfl

end Cert.KernelIdeal.Val

end
-- ==== Proof.KRegion2.lean ====
/-
  The read-out's region: what its output array holds when the region ends.

  The region has one point; every window holds its whole array, and the one store writes the whole output. So, whatever
  the buffers hold when the region is entered, the output array ends at `Spec.readout` of the entry contents of the
  region's input arrays.
-/
import proofs.«116199_j10170482557046_1_alg».proof.Proof.Gen.KernelIdeal.Frame
import proofs.«116199_j10170482557046_1_alg».proof.Proof.KBody2
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.LibRowLayers Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- Every window's block index is (0, 0). -/
theorem idxW2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

/-- Window 0 holds its whole array. -/
theorem iblk2_0 (c : Dev nD) (t : Fin cfg2.N) : iblk2 V c 0 t = V c main_v57 := by
  have hf := idxW2 t
  have hz' : (fun a => win2_0.index t a * main_v57.ty.shape.size a) = fun _ => 0 := funext fun a => by
    match a with
    | ⟨0, _⟩ => show win2_0.index t (0 : Fin 2) * 512 = 0; rw [hf.1]
    | ⟨1, _⟩ => show win2_0.index t (1 : Fin 2) * 64 = 0; rw [hf.2.1]
  exact Memref.read_access_unit_zero (Elt Ideal) main_v57 hz' (fun a => by rw [congrFun hz' a]; simp) (V c main_v57)

/-- Window 1 holds its whole array. -/
theorem iblk2_1 (c : Dev nD) (t : Fin cfg2.N) : iblk2 V c 1 t = V c main_v63 := by
  have hf := idxW2 t
  have hz' : (fun a => win2_1.index t a * main_v63.ty.shape.size a) = fun _ => 0 := funext fun a => by
    match a with
    | ⟨0, _⟩ => show win2_1.index t (0 : Fin 2) * 512 = 0; rw [hf.2.2.1]
    | ⟨1, _⟩ => show win2_1.index t (1 : Fin 2) * 64 = 0; rw [hf.2.2.2.1]
  exact Memref.read_access_unit_zero (Elt Ideal) main_v63 hz' (fun a => by rw [congrFun hz' a]; simp) (V c main_v63)

/-- Window 2 holds its whole array. -/
theorem iblk2_2 (c : Dev nD) (t : Fin cfg2.N) : iblk2 V c 2 t = V c main_v69 := by
  have hf := idxW2 t
  have hz' : (fun a => win2_2.index t a * main_v69.ty.shape.size a) = fun _ => 0 := funext fun a => by
    match a with
    | ⟨0, _⟩ => show win2_2.index t (0 : Fin 2) * 512 = 0; rw [hf.2.2.2.2.1]
    | ⟨1, _⟩ => show win2_2.index t (1 : Fin 2) * 64 = 0; rw [hf.2.2.2.2.2.1]
  exact Memref.read_access_unit_zero (Elt Ideal) main_v69 hz' (fun a => by rw [congrFun hz' a]; simp) (V c main_v69)

/-- Window 3 holds its whole array. -/
theorem iblk2_3 (c : Dev nD) (t : Fin cfg2.N) : iblk2 V c 3 t = V c main_arg28 := by
  have hf := idxW2 t
  have hz' : (fun a => win2_3.index t a * main_arg28.ty.shape.size a) = fun _ => 0 := funext fun a => by
    match a with
    | ⟨0, _⟩ => show win2_3.index t (0 : Fin 2) * 64 = 0; rw [hf.2.2.2.2.2.2.1]
    | ⟨1, _⟩ => show win2_3.index t (1 : Fin 2) * 10 = 0; rw [hf.2.2.2.2.2.2.2.1]
  exact Memref.read_access_unit_zero (Elt Ideal) main_arg28 hz' (fun a => by rw [congrFun hz' a]; simp) (V c main_arg28)

/-- Window 4 holds its whole array. -/
theorem iblk2_4 (c : Dev nD) (t : Fin cfg2.N) : iblk2 V c 4 t = V c main_v70 := by
  have hf := idxW2 t
  have hz' : (fun a => win2_4.index t a * main_v70.ty.shape.size a) = fun _ => 0 := funext fun a => by
    match a with
    | ⟨0, _⟩ => show win2_4.index t (0 : Fin 2) * 1 = 0; rw [hf.2.2.2.2.2.2.2.2.1]
    | ⟨1, _⟩ => show win2_4.index t (1 : Fin 2) * 10 = 0; rw [hf.2.2.2.2.2.2.2.2.2.1]
  exact Memref.read_access_unit_zero (Elt Ideal) main_v70 hz' (fun a => by rw [congrFun hz' a]; simp) (V c main_v70)

/-- Window 5 holds its whole array. -/
theorem iblk2_5 (c : Dev nD) (t : Fin cfg2.N) : iblk2 V c 5 t = V c main_arg30 := by
  have hf := idxW2 t
  have hz' : (fun a => win2_5.index t a * main_arg30.ty.shape.size a) = fun _ => 0 := funext fun a => by
    match a with
    | ⟨0, _⟩ => show win2_5.index t (0 : Fin 2) * 64 = 0; rw [hf.2.2.2.2.2.2.2.2.2.2.1]
    | ⟨1, _⟩ => show win2_5.index t (1 : Fin 2) * 10 = 0; rw [hf.2.2.2.2.2.2.2.2.2.2.2.1]
  exact Memref.read_access_unit_zero (Elt Ideal) main_arg30 hz' (fun a => by rw [congrFun hz' a]; simp) (V c main_arg30)

/-- Window 6 holds its whole array. -/
theorem iblk2_6 (c : Dev nD) (t : Fin cfg2.N) : iblk2 V c 6 t = V c main_v71 := by
  have hf := idxW2 t
  have hz' : (fun a => win2_6.index t a * main_v71.ty.shape.size a) = fun _ => 0 := funext fun a => by
    match a with
    | ⟨0, _⟩ => show win2_6.index t (0 : Fin 2) * 1 = 0; rw [hf.2.2.2.2.2.2.2.2.2.2.2.2.1]
    | ⟨1, _⟩ => show win2_6.index t (1 : Fin 2) * 10 = 0; rw [hf.2.2.2.2.2.2.2.2.2.2.2.2.2.1]
  exact Memref.read_access_unit_zero (Elt Ideal) main_v71 hz' (fun a => by rw [congrFun hz' a]; simp) (V c main_v71)

/-- Window 7 holds its whole array. -/
theorem iblk2_7 (c : Dev nD) (t : Fin cfg2.N) : iblk2 V c 7 t = V c main_arg32 := by
  have hf := idxW2 t
  have hz' : (fun a => win2_7.index t a * main_arg32.ty.shape.size a) = fun _ => 0 := funext fun a => by
    match a with
    | ⟨0, _⟩ => show win2_7.index t (0 : Fin 2) * 64 = 0; rw [hf.2.2.2.2.2.2.2.2.2.2.2.2.2.2.1]
    | ⟨1, _⟩ => show win2_7.index t (1 : Fin 2) * 10 = 0; rw [hf.2.2.2.2.2.2.2.2.2.2.2.2.2.2.2.1]
  exact Memref.read_access_unit_zero (Elt Ideal) main_arg32 hz' (fun a => by rw [congrFun hz' a]; simp) (V c main_arg32)

/-- Window 8 holds its whole array. -/
theorem iblk2_8 (c : Dev nD) (t : Fin cfg2.N) : iblk2 V c 8 t = V c main_v72 := by
  have hf := idxW2 t
  have hz' : (fun a => win2_8.index t a * main_v72.ty.shape.size a) = fun _ => 0 := funext fun a => by
    match a with
    | ⟨0, _⟩ => show win2_8.index t (0 : Fin 2) * 1 = 0; rw [hf.2.2.2.2.2.2.2.2.2.2.2.2.2.2.2.2.1]
    | ⟨1, _⟩ => show win2_8.index t (1 : Fin 2) * 10 = 0; rw [hf.2.2.2.2.2.2.2.2.2.2.2.2.2.2.2.2.2.1]
  exact Memref.read_access_unit_zero (Elt Ideal) main_v72 hz' (fun a => by rw [congrFun hz' a]; simp) (V c main_v72)

/-- Window 9 holds its whole array. -/
theorem iblk2_9 (c : Dev nD) (t : Fin cfg2.N) : iblk2 V c 9 t = V c main_arg3 := by
  have hf := idxW2 t
  have hz' : (fun a => win2_9.index t a * main_arg3.ty.shape.size a) = fun _ => 0 := funext fun a => by
    match a with
    | ⟨0, _⟩ => show win2_9.index t (0 : Fin 2) * 512 = 0; rw [hf.2.2.2.2.2.2.2.2.2.2.2.2.2.2.2.2.2.2.1]
    | ⟨1, _⟩ => show win2_9.index t (1 : Fin 2) * 3 = 0; rw [hf.2.2.2.2.2.2.2.2.2.2.2.2.2.2.2.2.2.2.2.1]
  exact Memref.read_access_unit_zero (Elt Ideal) main_arg3 hz' (fun a => by rw [congrFun hz' a]; simp) (V c main_arg3)

/-- What the output array holds after the region, as a function of the entry contents. -/
def G2 (c : Dev nD) : (⟨2, ![512, 10]⟩ : Shape).Idx → EReal :=
  readout (V c main_v57) (V c main_v63) (V c main_v69) (V c main_arg28) (row (V c main_v70)) (V c main_arg30) (row (V c main_v71))
    (V c main_arg32) (row (V c main_v72)) (V c main_arg3)

/-- `G2` once the entry contents of the region's input arrays are known: the biases arrive as vectors recast as
    one-row matrices. -/
theorem G2_of (c : Dev nD) (p0 p1 p2 : (⟨2, ![512, 64]⟩ : Shape).Idx → EReal) (w0 w1 w2 : (⟨2, ![64, 10]⟩ : Shape).Idx → EReal)
    (c0 c1 c2 : (⟨1, ![10]⟩ : Shape).Idx → EReal) (om : (⟨2, ![512, 3]⟩ : Shape).Idx → EReal)
    (e0 : V c main_v57 = p0) (e1 : V c main_v63 = p1) (e2 : V c main_v69 = p2) (e3 : V c main_arg28 = w0)
    (e4 : V c main_v70 = shapeCast S1x10 c0 shapeCasts_S10_S1x10) (e5 : V c main_arg30 = w1)
    (e6 : V c main_v71 = shapeCast S1x10 c1 shapeCasts_S10_S1x10) (e7 : V c main_arg32 = w2)
    (e8 : V c main_v72 = shapeCast S1x10 c2 shapeCasts_S10_S1x10) (e9 : V c main_arg3 = om) :
    G2 V c = readout p0 p1 p2 w0 (fun j => c0 (ix1 j)) w1 (fun j => c1 (ix1 j)) w2 (fun j => c2 (ix1 j)) om := by
  unfold G2
  rw [e0, e1, e2, e3, e4, e5, e6, e7, e8, e9]
  have hrow : ∀ x : (⟨1, ![10]⟩ : Shape).Idx → EReal, row (shapeCast S1x10 x shapeCasts_S10_S1x10) = fun j => x (ix1 j) :=
    fun x => funext fun j => shapeCast_a_1a_apply x shapeCasts_S10_S1x10 0 j
  simp only [hrow]

/-- What the one point writes back is `G2`, read through the whole-array block. -/
theorem flushed2_eq (c : Dev nD) (t : Fin cfg2.N) :
    (dat2 V c).flushed 10 t = ((cfg2.win 10).blk t).view.read (Elt Ideal) (G2 V c) := by
  have hf := idxW2 t
  have hz' : (fun a => win2_10.index t a * main_v73.ty.shape.size a) = fun _ => 0 := funext fun a => by
    match a with
    | ⟨0, _⟩ => show win2_10.index t (0 : Fin 2) * 512 = 0; rw [hf.2.2.2.2.2.2.2.2.2.2.2.2.2.2.2.2.2.2.2.2.1]
    | ⟨1, _⟩ => show win2_10.index t (1 : Fin 2) * 10 = 0; rw [hf.2.2.2.2.2.2.2.2.2.2.2.2.2.2.2.2.2.2.2.2.2]
  show (cfg2.win 10).cut (grid2.coords t) ((dat2 V c).after 10 t) = _
  rw [after2_10]
  unfold out2_10
  rw [View.canon_unit_zero hz2]
  simp only [View.ld_unit_zero (S := S512x64) hz2, View.ld_unit_zero (S := S64x10) hz2, View.ld_unit_zero (S := S1x10) hz2,
    View.ld_unit_zero (S := S512x3) hz2]
  rw [iblk2_0, iblk2_1, iblk2_2, iblk2_3, iblk2_4, iblk2_5, iblk2_6, iblk2_7, iblk2_8, iblk2_9]
  refine Eq.trans ?_ (Memref.read_access_unit_zero (Elt Ideal) main_v73 hz' (fun a => by rw [congrFun hz' a]; simp) (G2 V c)).symm
  funext j
  obtain ⟨a, q, rfl⟩ : ∃ (a : Fin 512) (q : Fin 10), j = ix2 a q := ⟨j 0, j 1, eq_ix2 j⟩
  unfold G2
  rw [readout_apply]
  exact pay2_apply (V c main_v57) (V c main_v63) (V c main_v69) (V c main_arg28) (V c main_v70) (V c main_arg30) (V c main_v71)
    (V c main_arg32) (V c main_v72) (V c main_arg3) a q

/-- The one block covers the output array, so it ends at `G2`. -/
theorem final2 (c : Dev nD) : (dat2 V c).arrAt 10 cfg2.N = G2 V c :=
  (dat2 V c).arrAt_eq_of_cover 10 (G2 V c) (fun t _ => flushed2_eq V c t) fun i => by
    have hi0 : (i 0).val < 512 := (i 0).isLt
    have hi1 : (i 1).val < 10 := (i 1).isLt
    refine ⟨t2_0, flush2_10 _, ?_⟩
    have hf := idxW2 t2_0
    show i ∈ ((View.whole main_v73).slice (win2_10.rect t2_0)).set
    rw [View.set_slice_whole, Rect.mem_set_unit]
    intro a
    match a with
    | ⟨0, _⟩ =>
      show win2_10.index _ (0 : Fin 2) * 512 ≤ (i 0).val ∧ (i 0).val < win2_10.index _ (0 : Fin 2) * 512 + 512
      rw [hf.2.2.2.2.2.2.2.2.2.2.2.2.2.2.2.2.2.2.2.2.1]; omega
    | ⟨1, _⟩ =>
      show win2_10.index _ (1 : Fin 2) * 10 ≤ (i 1).val ∧ (i 1).val < win2_10.index _ (1 : Fin 2) * 10 + 10
      rw [hf.2.2.2.2.2.2.2.2.2.2.2.2.2.2.2.2.2.2.2.2.2]; omega

end Cert.KernelIdeal.Val

end
-- ==== Proof.LibKeeps.lean ====
/-
  A straight line of host operations leaves every buffer it does not write as it was. Which buffers a line writes is
  read off the line itself: each operation writes exactly its result reference. The tactic below proves, for a literal
  line `ops` and a literal list `W` of references, that every operation's written set lies inside `W`; the library's
  `StableHlo.after_of_writes_sub` then gives `after ops V b = V b` for any reference `b` outside `W`
  (membership in `W` is decided over references).
-/
import Idealize.ShloMosaic.Lib.StableHlo.Run

open Idealize.ShloMosaic

/-- Closes `ops.Forall fun op => op.writes ⊆ (W.map (Proc.devRef .tc)).toFinset` for a literal line `ops` (named by the
    identifier given, so that it can be unfolded) of the library's operation builders and a literal list `W` holding
    every result reference of the line: the conjunction is split, each builder's written set is the singleton of its
    result reference, and that reference is found in `W` by `decide`. -/
macro "host_writes" ops:ident : tactic =>
  `(tactic| (simp only [$ops:ident, List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes,
                  StableHlo.unaryIndexed_writes, StableHlo.nary_writes, Finset.singleton_subset_iff, List.mem_toFinset]
                exact List.mem_map_of_mem (by decide))))
-- ==== Proof.KStretch.lean ====
/-
  The three stretches of host operations of the idealized kernel, read at the buffers the regions take.

  Each stretch is read from an arbitrary valuation `W` of the buffers at its start. The first computes the source and
  destination index vectors, the sum over in-edges of the input features, and the first layer's parameters recast as
  one-row matrices; the second the sum over in-edges of the first layer's output and the second layer's parameters as
  rows; the third the three per-graph means and the read-out's biases as rows. A buffer a stretch does not write keeps
  its contents.
-/
import proofs.«116199_j10170482557046_1_alg».proof.Proof.Gen.KernelIdeal.Launch
import proofs.«116199_j10170482557046_1_alg».proof.Proof.HostForms
import proofs.«116199_j10170482557046_1_alg».proof.Proof.LibKeeps
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Cert.HostForms

variable (W : Valuation τ sig (Elt Ideal))

/-! ## The two programs' index-operation records are the same records -/

theorem scatRows_eq : Cert.KernelIdeal.scatter_S50000x64_S800000x1_S800000x64_1_0_0_1
    = Cert.ReferenceIdeal.scatter_S50000x64_S800000x1_S800000x64_1_0_0_1 := rfl
theorem gathRows_eq : Cert.KernelIdeal.gather_S50000x64_S800000x1_S800000x64_1_0_n_n_0_1_164
    = Cert.ReferenceIdeal.gather_S50000x64_S800000x1_S800000x64_1_0_n_n_0_1_164 := rfl
theorem scatPool_eq : Cert.KernelIdeal.scatter_S512x64_S50000x1_S50000x64_1_0_0_1
    = Cert.ReferenceIdeal.scatter_S512x64_S50000x1_S50000x64_1_0_0_1 := rfl
theorem scatCount_eq : Cert.KernelIdeal.scatter_S512_S50000x1_S50000_n_0_0_1
    = Cert.ReferenceIdeal.scatter_S512_S50000x1_S50000_n_0_0_1 := rfl

/-! ## The first stretch -/

/-- The references the first stretch writes. -/
def written0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23]

theorem writes0 : (hostOps0 : List (HloOp τ sig (Elt Ideal))).Forall fun op => op.writes ⊆ (written0.map (Proc.devRef (τ := τ) .tc)).toFinset := by
  host_writes hostOps0

theorem keep0 (b : Ref sig .tc) (hb : b ∉ written0) : StableHlo.after hostOps0 W (Proc.devRef .tc b) = W (Proc.devRef .tc b) :=
  StableHlo.after_of_writes_sub hostOps0 W writes0 hb

theorem s0_v1 : StableHlo.after hostOps0 W (Proc.devRef .tc main_v1) = ReferenceIdeal.Read.val_main_v1 (F := Ideal) (W (Proc.devRef .tc main_arg1)) := by
  after_results; rfl

theorem s0_v3 : StableHlo.after hostOps0 W (Proc.devRef .tc main_v3) = ReferenceIdeal.Read.val_main_v3 (F := Ideal) (W (Proc.devRef .tc main_arg1)) := by
  after_results; rfl

theorem s0_v13 : StableHlo.after hostOps0 W (Proc.devRef .tc main_v13) = hostAggr (W (Proc.devRef .tc main_arg0)) (W (Proc.devRef .tc main_arg1)) := by
  after_results_simp
  rw [scatRows_eq, gathRows_eq]
  rfl

theorem s0_v14 : StableHlo.after hostOps0 W (Proc.devRef .tc main_v14) = shapeCast S1x64 (W (Proc.devRef .tc main_arg5)) shapeCasts_S64_S1x64 := by
  after_results; rfl
theorem s0_v15 : StableHlo.after hostOps0 W (Proc.devRef .tc main_v15) = shapeCast S1x64 (W (Proc.devRef .tc main_arg6)) shapeCasts_S64_S1x64 := by
  after_results; rfl
theorem s0_v16 : StableHlo.after hostOps0 W (Proc.devRef .tc main_v16) = shapeCast S1x64 (W (Proc.devRef .tc main_arg7)) shapeCasts_S64_S1x64 := by
  after_results; rfl
theorem s0_v17 : StableHlo.after hostOps0 W (Proc.devRef .tc main_v17) = shapeCast S1x64 (W (Proc.devRef .tc main_arg8)) shapeCasts_S64_S1x64 := by
  after_results; rfl
theorem s0_v18 : StableHlo.after hostOps0 W (Proc.devRef .tc main_v18) = shapeCast S1x64 (W (Proc.devRef .tc main_arg9)) shapeCasts_S64_S1x64 := by
  after_results; rfl
theorem s0_v19 : StableHlo.after hostOps0 W (Proc.devRef .tc main_v19) = shapeCast S1x64 (W (Proc.devRef .tc main_arg11)) shapeCasts_S64_S1x64 := by
  after_results; rfl
theorem s0_v20 : StableHlo.after hostOps0 W (Proc.devRef .tc main_v20) = shapeCast S1x64 (W (Proc.devRef .tc main_arg12)) shapeCasts_S64_S1x64 := by
  after_results; rfl
theorem s0_v21 : StableHlo.after hostOps0 W (Proc.devRef .tc main_v21) = shapeCast S1x64 (W (Proc.devRef .tc main_arg13)) shapeCasts_S64_S1x64 := by
  after_results; rfl
theorem s0_v22 : StableHlo.after hostOps0 W (Proc.devRef .tc main_v22) = shapeCast S1x64 (W (Proc.devRef .tc main_arg14)) shapeCasts_S64_S1x64 := by
  after_results; rfl
theorem s0_v23 : StableHlo.after hostOps0 W (Proc.devRef .tc main_v23) = shapeCast S1x64 (W (Proc.devRef .tc main_arg15)) shapeCasts_S64_S1x64 := by
  after_results; rfl

/-! ## The second stretch -/

/-- The references the second stretch writes. -/
def written1 : List (Ref sig .tc) := [main_c_1, main_v25, main_v26, main_c_2, main_v27, main_v28, main_v29, main_v30, main_v31, main_cst_3, main_v32, main_v33, main_v34, main_v35, main_v36, main_v37, main_v38, main_v39, main_v40, main_v41, main_v42, main_v43, main_v44]

theorem writes1 : (hostOps1 : List (HloOp τ sig (Elt Ideal))).Forall fun op => op.writes ⊆ (written1.map (Proc.devRef (τ := τ) .tc)).toFinset := by
  host_writes hostOps1

theorem keep1 (b : Ref sig .tc) (hb : b ∉ written1) : StableHlo.after hostOps1 W (Proc.devRef .tc b) = W (Proc.devRef .tc b) :=
  StableHlo.after_of_writes_sub hostOps1 W writes1 hb

theorem s1_v34 : StableHlo.after hostOps1 W (Proc.devRef .tc main_v34) = aggrFrom (W (Proc.devRef .tc main_v24)) (W (Proc.devRef .tc main_v1)) (W (Proc.devRef .tc main_v3)) := by
  after_results_simp
  rw [scatRows_eq, gathRows_eq]
  rfl

theorem s1_v35 : StableHlo.after hostOps1 W (Proc.devRef .tc main_v35) = shapeCast S1x64 (W (Proc.devRef .tc main_arg17)) shapeCasts_S64_S1x64 := by
  after_results; rfl
theorem s1_v36 : StableHlo.after hostOps1 W (Proc.devRef .tc main_v36) = shapeCast S1x64 (W (Proc.devRef .tc main_arg18)) shapeCasts_S64_S1x64 := by
  after_results; rfl
theorem s1_v37 : StableHlo.after hostOps1 W (Proc.devRef .tc main_v37) = shapeCast S1x64 (W (Proc.devRef .tc main_arg19)) shapeCasts_S64_S1x64 := by
  after_results; rfl
theorem s1_v38 : StableHlo.after hostOps1 W (Proc.devRef .tc main_v38) = shapeCast S1x64 (W (Proc.devRef .tc main_arg20)) shapeCasts_S64_S1x64 := by
  after_results; rfl
theorem s1_v39 : StableHlo.after hostOps1 W (Proc.devRef .tc main_v39) = shapeCast S1x64 (W (Proc.devRef .tc main_arg21)) shapeCasts_S64_S1x64 := by
  after_results; rfl
theorem s1_v40 : StableHlo.after hostOps1 W (Proc.devRef .tc main_v40) = shapeCast S1x64 (W (Proc.devRef .tc main_arg23)) shapeCasts_S64_S1x64 := by
  after_results; rfl
theorem s1_v41 : StableHlo.after hostOps1 W (Proc.devRef .tc main_v41) = shapeCast S1x64 (W (Proc.devRef .tc main_arg24)) shapeCasts_S64_S1x64 := by
  after_results; rfl
theorem s1_v42 : StableHlo.after hostOps1 W (Proc.devRef .tc main_v42) = shapeCast S1x64 (W (Proc.devRef .tc main_arg25)) shapeCasts_S64_S1x64 := by
  after_results; rfl
theorem s1_v43 : StableHlo.after hostOps1 W (Proc.devRef .tc main_v43) = shapeCast S1x64 (W (Proc.devRef .tc main_arg26)) shapeCasts_S64_S1x64 := by
  after_results; rfl
theorem s1_v44 : StableHlo.after hostOps1 W (Proc.devRef .tc main_v44) = shapeCast S1x64 (W (Proc.devRef .tc main_arg27)) shapeCasts_S64_S1x64 := by
  after_results; rfl

/-! ## The third stretch -/

/-- The references the third stretch writes. -/
def written2 : List (Ref sig .tc) := [main_cst_4, main_v46, main_cst_5, main_v47, main_v48, main_v49, main_cst_6, main_v50, main_v51, main_cst_7, main_v52, main_v53, main_v54, main_v55, main_v56, main_v57, main_cst_8, main_v58, main_v59, main_v60, main_v61, main_v62, main_v63, main_cst_9, main_v64, main_v65, main_v66, main_v67, main_v68, main_v69, main_v70, main_v71, main_v72]

theorem writes2 : (hostOps2 : List (HloOp τ sig (Elt Ideal))).Forall fun op => op.writes ⊆ (written2.map (Proc.devRef (τ := τ) .tc)).toFinset := by
  host_writes hostOps2

theorem keep2 (b : Ref sig .tc) (hb : b ∉ written2) : StableHlo.after hostOps2 W (Proc.devRef .tc b) = W (Proc.devRef .tc b) :=
  StableHlo.after_of_writes_sub hostOps2 W writes2 hb

theorem s2_v57 : StableHlo.after hostOps2 W (Proc.devRef .tc main_v57) = hostPool (W (Proc.devRef .tc main_arg0)) (W (Proc.devRef .tc main_arg2)) := by
  after_results_simp
  rw [scatPool_eq, scatCount_eq]
  rfl

theorem s2_v63 : StableHlo.after hostOps2 W (Proc.devRef .tc main_v63) = hostPool (W (Proc.devRef .tc main_v24)) (W (Proc.devRef .tc main_arg2)) := by
  after_results_simp
  rw [scatPool_eq, scatCount_eq]
  rfl

theorem s2_v69 : StableHlo.after hostOps2 W (Proc.devRef .tc main_v69) = hostPool (W (Proc.devRef .tc main_v45)) (W (Proc.devRef .tc main_arg2)) := by
  after_results_simp
  rw [scatPool_eq, scatCount_eq]
  rfl

theorem s2_v70 : StableHlo.after hostOps2 W (Proc.devRef .tc main_v70) = shapeCast S1x10 (W (Proc.devRef .tc main_arg29)) shapeCasts_S10_S1x10 := by
  after_results_simp; rfl
theorem s2_v71 : StableHlo.after hostOps2 W (Proc.devRef .tc main_v71) = shapeCast S1x10 (W (Proc.devRef .tc main_arg31)) shapeCasts_S10_S1x10 := by
  after_results_simp; rfl
theorem s2_v72 : StableHlo.after hostOps2 W (Proc.devRef .tc main_v72) = shapeCast S1x10 (W (Proc.devRef .tc main_arg33)) shapeCasts_S10_S1x10 := by
  after_results_simp; rfl

end Cert.KernelIdeal.Val

end
-- ==== Proof.KFold.lean ====
/-
  The idealized kernel's result buffer at the end of the run, as the network of the launch contents of the arguments.

  The buffer contents are followed through the six segments. The first stretch leaves the in-edge sums of the input
  features and the first layer's parameters as rows; the first region leaves the first layer's output `H₁`; the second
  stretch leaves the in-edge sums of `H₁` and the second layer's parameters; the second region leaves `H₂`; the third
  stretch leaves the per-graph means of the input features, of `H₁` and of `H₂`; the last region leaves the read-out.
  An argument buffer is written by no segment.
-/
import proofs.«116199_j10170482557046_1_alg».proof.Proof.Gen.KernelIdeal.Frame
import proofs.«116199_j10170482557046_1_alg».proof.Proof.KRegion0
import proofs.«116199_j10170482557046_1_alg».proof.Proof.KRegion1
import proofs.«116199_j10170482557046_1_alg».proof.Proof.KRegion2
import proofs.«116199_j10170482557046_1_alg».proof.Proof.KStretch
import proofs.«116199_j10170482557046_1_alg».proof.Proof.RefValue

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx
open Cert.HostForms Cert.Spec

variable (m : (ℓ : Loc nD τ sig) → Buf (Elt Ideal) ℓ) (ρ : Dev nD → PrngReg) (c : Dev nD)

/-- The one row of a vector recast as a one-row matrix is the vector. -/
theorem row_cast {n : ℕ} (x : (⟨1, ![n]⟩ : Shape).Idx → EReal) (h : (⟨1, ![n]⟩ : Shape).ShapeCasts ⟨2, ![1, n]⟩) :
    row (shapeCast ⟨2, ![1, n]⟩ x h) = vec x := funext fun j => shapeCast_a_1a_apply x h 0 j

/-! ## After the first stretch -/

theorem t1_keep (b : Ref sig .tc) (hb : b ∉ written0) : W1 m ρ c (Proc.devRef .tc b) = m ((c : Thread nD τ).loc b) :=
  keep0 (W0 m ρ c) b hb

theorem t1_v1 : W1 m ρ c (Proc.devRef .tc main_v1) = ReferenceIdeal.Read.val_main_v1 (F := Ideal) (m ((c : Thread nD τ).loc main_arg1)) := s0_v1 (W0 m ρ c)
theorem t1_v3 : W1 m ρ c (Proc.devRef .tc main_v3) = ReferenceIdeal.Read.val_main_v3 (F := Ideal) (m ((c : Thread nD τ).loc main_arg1)) := s0_v3 (W0 m ρ c)
theorem t1_v13 : W1 m ρ c (Proc.devRef .tc main_v13) = hostAggr (m ((c : Thread nD τ).loc main_arg0)) (m ((c : Thread nD τ).loc main_arg1)) := s0_v13 (W0 m ρ c)
theorem t1_v14 : W1 m ρ c (Proc.devRef .tc main_v14) = shapeCast S1x64 (m ((c : Thread nD τ).loc main_arg5)) shapeCasts_S64_S1x64 := s0_v14 (W0 m ρ c)
theorem t1_v15 : W1 m ρ c (Proc.devRef .tc main_v15) = shapeCast S1x64 (m ((c : Thread nD τ).loc main_arg6)) shapeCasts_S64_S1x64 := s0_v15 (W0 m ρ c)
theorem t1_v16 : W1 m ρ c (Proc.devRef .tc main_v16) = shapeCast S1x64 (m ((c : Thread nD τ).loc main_arg7)) shapeCasts_S64_S1x64 := s0_v16 (W0 m ρ c)
theorem t1_v17 : W1 m ρ c (Proc.devRef .tc main_v17) = shapeCast S1x64 (m ((c : Thread nD τ).loc main_arg8)) shapeCasts_S64_S1x64 := s0_v17 (W0 m ρ c)
theorem t1_v18 : W1 m ρ c (Proc.devRef .tc main_v18) = shapeCast S1x64 (m ((c : Thread nD τ).loc main_arg9)) shapeCasts_S64_S1x64 := s0_v18 (W0 m ρ c)
theorem t1_v19 : W1 m ρ c (Proc.devRef .tc main_v19) = shapeCast S1x64 (m ((c : Thread nD τ).loc main_arg11)) shapeCasts_S64_S1x64 := s0_v19 (W0 m ρ c)
theorem t1_v20 : W1 m ρ c (Proc.devRef .tc main_v20) = shapeCast S1x64 (m ((c : Thread nD τ).loc main_arg12)) shapeCasts_S64_S1x64 := s0_v20 (W0 m ρ c)
theorem t1_v21 : W1 m ρ c (Proc.devRef .tc main_v21) = shapeCast S1x64 (m ((c : Thread nD τ).loc main_arg13)) shapeCasts_S64_S1x64 := s0_v21 (W0 m ρ c)
theorem t1_v22 : W1 m ρ c (Proc.devRef .tc main_v22) = shapeCast S1x64 (m ((c : Thread nD τ).loc main_arg14)) shapeCasts_S64_S1x64 := s0_v22 (W0 m ρ c)
theorem t1_v23 : W1 m ρ c (Proc.devRef .tc main_v23) = shapeCast S1x64 (m ((c : Thread nD τ).loc main_arg15)) shapeCasts_S64_S1x64 := s0_v23 (W0 m ρ c)

/-! ## After the first region -/

/-- The first layer's output. -/
theorem t2_v24 : W2 m ρ c (Proc.devRef .tc main_v24) = RefValue.feat1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W2_arr m ρ c 14).trans ((final0 (V1 m ρ) c).trans (G0_of (V1 m ρ) c _ _ _ _ _ _ _ _ _ _ _ _ _ _
    (t1_keep m ρ c main_arg0 (by decide)) (t1_v13 m ρ c) (t1_keep m ρ c main_arg4 (by decide)) (t1_keep m ρ c main_arg10 (by decide))
    (t1_v14 m ρ c) (t1_v15 m ρ c) (t1_v16 m ρ c) (t1_v17 m ρ c) (t1_v18 m ρ c) (t1_v19 m ρ c) (t1_v20 m ρ c) (t1_v21 m ρ c) (t1_v22 m ρ c) (t1_v23 m ρ c)))

theorem t2_arg0 : W2 m ρ c (Proc.devRef .tc main_arg0) = (m ((c : Thread nD τ).loc main_arg0)) :=
  (W2_arr m ρ c 0).trans ((((dat0 (V1 m ρ) c).arrAt_in 0 rfl _).trans (A_eq0 (V1 m ρ) c 0)).trans (t1_keep m ρ c main_arg0 (by decide)))

theorem t2_keep (b : Ref sig .tc) (hb : ∀ w, Pipeline.arrRef spec0 w ≠ b) (hb' : b ∉ written0) :
    W2 m ρ c (Proc.devRef .tc b) = m ((c : Thread nD τ).loc b) :=
  (W2_of_ne m ρ c b hb).trans (t1_keep m ρ c b hb')

theorem t2_v1 : W2 m ρ c (Proc.devRef .tc main_v1) = ReferenceIdeal.Read.val_main_v1 (F := Ideal) (m ((c : Thread nD τ).loc main_arg1)) :=
  (W2_of_ne m ρ c main_v1 (by decide)).trans (t1_v1 m ρ c)
theorem t2_v3 : W2 m ρ c (Proc.devRef .tc main_v3) = ReferenceIdeal.Read.val_main_v3 (F := Ideal) (m ((c : Thread nD τ).loc main_arg1)) :=
  (W2_of_ne m ρ c main_v3 (by decide)).trans (t1_v3 m ρ c)

/-! ## After the second stretch -/

theorem t3_keep (b : Ref sig .tc) (hb : b ∉ written1) : W3 m ρ c (Proc.devRef .tc b) = W2 m ρ c (Proc.devRef .tc b) :=
  keep1 (W2 m ρ c) b hb

theorem t3_v34 : W3 m ρ c (Proc.devRef .tc main_v34) = hostAggr (RefValue.feat1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg1)) := by
  refine (s1_v34 (W2 m ρ c)).trans ?_
  rw [t2_v24, t2_v1, t2_v3]
  rfl
theorem t3_v35 : W3 m ρ c (Proc.devRef .tc main_v35) = shapeCast S1x64 (m ((c : Thread nD τ).loc main_arg17)) shapeCasts_S64_S1x64 :=
  (s1_v35 (W2 m ρ c)).trans (by rw [t2_keep m ρ c main_arg17 (by decide) (by decide)])
theorem t3_v36 : W3 m ρ c (Proc.devRef .tc main_v36) = shapeCast S1x64 (m ((c : Thread nD τ).loc main_arg18)) shapeCasts_S64_S1x64 :=
  (s1_v36 (W2 m ρ c)).trans (by rw [t2_keep m ρ c main_arg18 (by decide) (by decide)])
theorem t3_v37 : W3 m ρ c (Proc.devRef .tc main_v37) = shapeCast S1x64 (m ((c : Thread nD τ).loc main_arg19)) shapeCasts_S64_S1x64 :=
  (s1_v37 (W2 m ρ c)).trans (by rw [t2_keep m ρ c main_arg19 (by decide) (by decide)])
theorem t3_v38 : W3 m ρ c (Proc.devRef .tc main_v38) = shapeCast S1x64 (m ((c : Thread nD τ).loc main_arg20)) shapeCasts_S64_S1x64 :=
  (s1_v38 (W2 m ρ c)).trans (by rw [t2_keep m ρ c main_arg20 (by decide) (by decide)])
theorem t3_v39 : W3 m ρ c (Proc.devRef .tc main_v39) = shapeCast S1x64 (m ((c : Thread nD τ).loc main_arg21)) shapeCasts_S64_S1x64 :=
  (s1_v39 (W2 m ρ c)).trans (by rw [t2_keep m ρ c main_arg21 (by decide) (by decide)])
theorem t3_v40 : W3 m ρ c (Proc.devRef .tc main_v40) = shapeCast S1x64 (m ((c : Thread nD τ).loc main_arg23)) shapeCasts_S64_S1x64 :=
  (s1_v40 (W2 m ρ c)).trans (by rw [t2_keep m ρ c main_arg23 (by decide) (by decide)])
theorem t3_v41 : W3 m ρ c (Proc.devRef .tc main_v41) = shapeCast S1x64 (m ((c : Thread nD τ).loc main_arg24)) shapeCasts_S64_S1x64 :=
  (s1_v41 (W2 m ρ c)).trans (by rw [t2_keep m ρ c main_arg24 (by decide) (by decide)])
theorem t3_v42 : W3 m ρ c (Proc.devRef .tc main_v42) = shapeCast S1x64 (m ((c : Thread nD τ).loc main_arg25)) shapeCasts_S64_S1x64 :=
  (s1_v42 (W2 m ρ c)).trans (by rw [t2_keep m ρ c main_arg25 (by decide) (by decide)])
theorem t3_v43 : W3 m ρ c (Proc.devRef .tc main_v43) = shapeCast S1x64 (m ((c : Thread nD τ).loc main_arg26)) shapeCasts_S64_S1x64 :=
  (s1_v43 (W2 m ρ c)).trans (by rw [t2_keep m ρ c main_arg26 (by decide) (by decide)])
theorem t3_v44 : W3 m ρ c (Proc.devRef .tc main_v44) = shapeCast S1x64 (m ((c : Thread nD τ).loc main_arg27)) shapeCasts_S64_S1x64 :=
  (s1_v44 (W2 m ρ c)).trans (by rw [t2_keep m ρ c main_arg27 (by decide) (by decide)])

/-! ## After the second region -/

/-- The second layer's output. -/
theorem t4_v45 : W4 m ρ c (Proc.devRef .tc main_v45) = layer (RefValue.feat1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (hostAggr (RefValue.feat1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg1))) (m ((c : Thread nD τ).loc main_arg16)) (vec (m ((c : Thread nD τ).loc main_arg17))) (vec (m ((c : Thread nD τ).loc main_arg18))) (vec (m ((c : Thread nD τ).loc main_arg19))) (vec (m ((c : Thread nD τ).loc main_arg20))) (vec (m ((c : Thread nD τ).loc main_arg21))) (m ((c : Thread nD τ).loc main_arg22)) (vec (m ((c : Thread nD τ).loc main_arg23))) (vec (m ((c : Thread nD τ).loc main_arg24))) (vec (m ((c : Thread nD τ).loc main_arg25))) (vec (m ((c : Thread nD τ).loc main_arg26))) (vec (m ((c : Thread nD τ).loc main_arg27))) :=
  (W4_arr m ρ c 14).trans ((final1 (V3 m ρ) c).trans (G1_of (V3 m ρ) c _ _ _ _ _ _ _ _ _ _ _ _ _ _
    ((t3_keep m ρ c main_v24 (by decide)).trans (t2_v24 m ρ c)) (t3_v34 m ρ c)
    ((t3_keep m ρ c main_arg16 (by decide)).trans (t2_keep m ρ c main_arg16 (by decide) (by decide))) ((t3_keep m ρ c main_arg22 (by decide)).trans (t2_keep m ρ c main_arg22 (by decide) (by decide)))
    (t3_v35 m ρ c) (t3_v36 m ρ c) (t3_v37 m ρ c) (t3_v38 m ρ c) (t3_v39 m ρ c) (t3_v40 m ρ c) (t3_v41 m ρ c) (t3_v42 m ρ c) (t3_v43 m ρ c) (t3_v44 m ρ c)))

theorem t4_v24 : W4 m ρ c (Proc.devRef .tc main_v24) = RefValue.feat1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W4_arr m ρ c 0).trans ((((dat1 (V3 m ρ) c).arrAt_in 0 rfl _).trans (A_eq1 (V3 m ρ) c 0)).trans
    ((t3_keep m ρ c main_v24 (by decide)).trans (t2_v24 m ρ c)))

theorem t4_arg0 : W4 m ρ c (Proc.devRef .tc main_arg0) = (m ((c : Thread nD τ).loc main_arg0)) :=
  (W4_of_ne m ρ c main_arg0 (by decide)).trans ((t3_keep m ρ c main_arg0 (by decide)).trans (t2_arg0 m ρ c))

theorem t4_keep (b : Ref sig .tc) (h1 : ∀ w, Pipeline.arrRef spec1 w ≠ b) (h2 : b ∉ written1) (h3 : ∀ w, Pipeline.arrRef spec0 w ≠ b)
    (h4 : b ∉ written0) : W4 m ρ c (Proc.devRef .tc b) = m ((c : Thread nD τ).loc b) :=
  (W4_of_ne m ρ c b h1).trans ((t3_keep m ρ c b h2).trans (t2_keep m ρ c b h3 h4))

/-! ## After the third stretch -/

theorem t5_keep (b : Ref sig .tc) (h0 : b ∉ written2) (h1 : ∀ w, Pipeline.arrRef spec1 w ≠ b) (h2 : b ∉ written1)
    (h3 : ∀ w, Pipeline.arrRef spec0 w ≠ b) (h4 : b ∉ written0) : W5 m ρ c (Proc.devRef .tc b) = m ((c : Thread nD τ).loc b) :=
  (keep2 (W4 m ρ c) b h0).trans (t4_keep m ρ c b h1 h2 h3 h4)

theorem t5_v57 : W5 m ρ c (Proc.devRef .tc main_v57) = hostPool (m ((c : Thread nD τ).loc main_arg0)) (m ((c : Thread nD τ).loc main_arg2)) := by
  refine (s2_v57 (W4 m ρ c)).trans ?_
  rw [t4_arg0, t4_keep m ρ c main_arg2 (by decide) (by decide) (by decide) (by decide)]

theorem t5_v63 : W5 m ρ c (Proc.devRef .tc main_v63) = hostPool (RefValue.feat1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg2)) := by
  refine (s2_v63 (W4 m ρ c)).trans ?_
  rw [t4_v24, t4_keep m ρ c main_arg2 (by decide) (by decide) (by decide) (by decide)]

theorem t5_v69 : W5 m ρ c (Proc.devRef .tc main_v69) = hostPool (layer (RefValue.feat1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (hostAggr (RefValue.feat1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg1))) (m ((c : Thread nD τ).loc main_arg16)) (vec (m ((c : Thread nD τ).loc main_arg17))) (vec (m ((c : Thread nD τ).loc main_arg18))) (vec (m ((c : Thread nD τ).loc main_arg19))) (vec (m ((c : Thread nD τ).loc main_arg20))) (vec (m ((c : Thread nD τ).loc main_arg21))) (m ((c : Thread nD τ).loc main_arg22)) (vec (m ((c : Thread nD τ).loc main_arg23))) (vec (m ((c : Thread nD τ).loc main_arg24))) (vec (m ((c : Thread nD τ).loc main_arg25))) (vec (m ((c : Thread nD τ).loc main_arg26))) (vec (m ((c : Thread nD τ).loc main_arg27)))) (m ((c : Thread nD τ).loc main_arg2)) := by
  refine (s2_v69 (W4 m ρ c)).trans ?_
  rw [t4_v45, t4_keep m ρ c main_arg2 (by decide) (by decide) (by decide) (by decide)]
theorem t5_v70 : W5 m ρ c (Proc.devRef .tc main_v70) = shapeCast S1x10 (m ((c : Thread nD τ).loc main_arg29)) shapeCasts_S10_S1x10 :=
  (s2_v70 (W4 m ρ c)).trans (by rw [t4_keep m ρ c main_arg29 (by decide) (by decide) (by decide) (by decide)])
theorem t5_v71 : W5 m ρ c (Proc.devRef .tc main_v71) = shapeCast S1x10 (m ((c : Thread nD τ).loc main_arg31)) shapeCasts_S10_S1x10 :=
  (s2_v71 (W4 m ρ c)).trans (by rw [t4_keep m ρ c main_arg31 (by decide) (by decide) (by decide) (by decide)])
theorem t5_v72 : W5 m ρ c (Proc.devRef .tc main_v72) = shapeCast S1x10 (m ((c : Thread nD τ).loc main_arg33)) shapeCasts_S10_S1x10 :=
  (s2_v72 (W4 m ρ c)).trans (by rw [t4_keep m ρ c main_arg33 (by decide) (by decide) (by decide) (by decide)])

/-! ## After the last region -/

/-- The result buffer ends at the network of the launch contents of the arguments. -/
theorem result_eq : W6 m ρ c (Proc.devRef .tc main_v73) = RefValue.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) :=
  (W6_arr m ρ c 10).trans ((final2 (V5 m ρ) c).trans (G2_of (V5 m ρ) c _ _ _ _ _ _ _ _ _ _
    (t5_v57 m ρ c) (t5_v63 m ρ c) (t5_v69 m ρ c) (t5_keep m ρ c main_arg28 (by decide) (by decide) (by decide) (by decide) (by decide)) (t5_v70 m ρ c) (t5_keep m ρ c main_arg30 (by decide) (by decide) (by decide) (by decide) (by decide)) (t5_v71 m ρ c) (t5_keep m ρ c main_arg32 (by decide) (by decide) (by decide) (by decide) (by decide)) (t5_v72 m ρ c) (t5_keep m ρ c main_arg3 (by decide) (by decide) (by decide) (by decide) (by decide))))

end Cert.KernelIdeal.Val

end
-- ==== Proof.KValue.lean ====
/-
  The idealized kernel's run, re-posted: the result buffer at the network of the arguments, the arguments unchanged.
-/
import proofs.«116199_j10170482557046_1_alg».proof.Proof.KRun
import proofs.«116199_j10170482557046_1_alg».proof.Proof.KFold

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Every weakly fair execution of @main terminates, nothing faulting; the result buffer ends at the network of the
    launch contents of the arguments, and every argument buffer ends as launched. -/
theorem run : θ_run defs (onTc (τ := τ) (main (F := Ideal))) ⟨m, fun _ => 0, ρ⟩ (fun r => ∀ c : Dev nD,
      r.2.mem ((c.tc : Thread nD τ).loc main_v73) = RefValue.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  (θ_run defs _ _).mono (fun r h c =>
    ⟨(h c _ (mem_uc main_v73 (by decide))).trans (result_eq m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c),
     (h c _ (mem_uc main_arg19 (by decide))).trans (W6_main_arg19 m ρ c),
     (h c _ (mem_uc main_arg20 (by decide))).trans (W6_main_arg20 m ρ c),
     (h c _ (mem_uc main_arg21 (by decide))).trans (W6_main_arg21 m ρ c),
     (h c _ (mem_uc main_arg22 (by decide))).trans (W6_main_arg22 m ρ c),
     (h c _ (mem_uc main_arg23 (by decide))).trans (W6_main_arg23 m ρ c),
     (h c _ (mem_uc main_arg24 (by decide))).trans (W6_main_arg24 m ρ c),
     (h c _ (mem_uc main_arg25 (by decide))).trans (W6_main_arg25 m ρ c),
     (h c _ (mem_uc main_arg26 (by decide))).trans (W6_main_arg26 m ρ c),
     (h c _ (mem_uc main_arg27 (by decide))).trans (W6_main_arg27 m ρ c),
     (h c _ (mem_uc main_arg28 (by decide))).trans (W6_main_arg28 m ρ c),
     (h c _ (mem_uc main_arg29 (by decide))).trans (W6_main_arg29 m ρ c),
     (h c _ (mem_uc main_arg30 (by decide))).trans (W6_main_arg30 m ρ c),
     (h c _ (mem_uc main_arg31 (by decide))).trans (W6_main_arg31 m ρ c),
     (h c _ (mem_uc main_arg32 (by decide))).trans (W6_main_arg32 m ρ c),
     (h c _ (mem_uc main_arg33 (by decide))).trans (W6_main_arg33 m ρ c)⟩)
    (run_fold m ρ)

end Cert.KernelIdeal.Val

end
-- ==== Proof.lean ====
/-
  The certificate: a graph network's fused tile programs against its plain reference, over the extended reals.

  The network is two message-passing layers and a read-out. A layer adds to each node's features the sum of its
  in-neighbours' features, applies a dense layer, a normalisation by running statistics and a rectifier, then a second
  dense layer, normalisation and rectifier; the read-out takes the per-graph means of the input features and of both
  layers' outputs through one dense layer each and adds them with per-graph weights.

  Both programs compute the sums over in-edges and the per-graph means by the same host operations; the kernel computes
  each layer's dense part in a region that walks 25 tiles of 2000 nodes, and the read-out in a one-tile region, where
  the reference applies whole-array operations. Entry (a, q) of a layer's output only looks at row a of its inputs, so
  the 25 tiles write exactly the rows of the whole-array result; a tile product into a zero accumulator is the same
  finite sum as the host's product, and a change of number format is the identity on the extended reals. The read-out
  adds its three terms in the same order in both programs, the reference starting from a zero array, and `0 + x = x`.
  No step needs the inputs to be finite.

  `frame_Kernel`, `frame_KernelIdeal`: the generated frame runs. `frame_ReferenceIdeal`: the reference's generated run
  with the result dropped. `preserves`: the idealization rewrote nothing. `algebraic`: both runs end with the result at
  `RefValue.net` of the arguments (`KernelIdeal.Val.run`, and `RefValue.ref_eq_net` over the reference's run).
-/
import proofs.«116199_j10170482557046_1_alg».proof.Defs
import proofs.«116199_j10170482557046_1_alg».proof.Proof.Gen.Kernel
import proofs.«116199_j10170482557046_1_alg».proof.Proof.Gen.Kernel.Frame
import proofs.«116199_j10170482557046_1_alg».proof.Proof.Gen.KernelIdeal
import proofs.«116199_j10170482557046_1_alg».proof.Proof.Gen.KernelIdeal.Frame
import proofs.«116199_j10170482557046_1_alg».proof.Proof.Gen.ReferenceIdeal
import proofs.«116199_j10170482557046_1_alg».proof.Proof.Gen.Pre_finite_inputs
import proofs.«116199_j10170482557046_1_alg».proof.Proof.Gen.ReferenceIdeal.Run
import proofs.«116199_j10170482557046_1_alg».proof.Proof.Gen.ReferenceIdeal.Read
import proofs.«116199_j10170482557046_1_alg».proof.Proof.RefValue
import proofs.«116199_j10170482557046_1_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the network of the arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33⟩ := hagree c
  rw [Cert.ReferenceIdeal.Read.val_main_v158_eq, Cert.RefValue.ref_eq_net]
  exact Cert.RefValue.net_congr _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 e23 e24 e25 e26 e27 e28 e29 e30 e31 e32 e33

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
